-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1280 : Shape := ⟨2, ![50000, 1280]⟩
abbrev S50000x3 : Shape := ⟨2, ![50000, 3]⟩
abbrev S2x1600000 : Shape := ⟨2, ![2, 1600000]⟩
abbrev S50000 : Shape := ⟨1, ![50000]⟩
abbrev S1280x128 : Shape := ⟨2, ![1280, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x1280 : S_.BroadcastsInDim S50000x1280 (![] : Fin 0 → Fin S50000x1280.rank)
  reducesTo_S50000x1280_S_d0_1 : S50000x1280.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S1280x128 : S_.BroadcastsInDim S1280x128 (![] : Fin 0 → Fin S1280x128.rank)
  reducesTo_S1280x128_S_d0_1 : S1280x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S128x2 .f32) (main_arg14 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg13
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x1280 .f32) (main_arg1 : FVec F S50000x3 .f32) (main_arg2 : IVec S2x1600000 32) (main_arg3 : IVec S50000 32) (main_arg4 : FVec F S1280x128 .f32) (main_arg5 : FVec F S128 .f32) (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) : IVec S_ 1 :=
  let main_v0 : FVec F S50000x1280 .f32 := Host.absf main_arg0
  let main_cst : FVec F S_ .f32 := constant S_ .f32 0x7F800000#32
  let main_v1 : FVec F S50000x1280 .f32 := broadcastInDim S50000x1280 ![] bcast_S_S50000x1280 main_cst
  let main_v2 : IVec S50000x1280 1 := cmpf .olt main_v0 main_v1
  let main_c : IVec S_ 1 := constantI S_ 1 1#1
  let main_v3 : IVec S_ 1 := (fun x v => Host.reduce IntOp.andi x v reducesTo_S50000x1280_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S1280x128 .f32 := Host.absf main_arg4
  let main_cst_2 : FVec F S_ .f32 := constant S_ .f32 0x7F800000#32
  let main_v10 : FVec F S1280x128 .f32 := broadcastInDim S1280x128 ![] bcast_S_S1280x128 main_cst_2
  let main_v11 : IVec S1280x128 1 := cmpf .olt main_v9 main_v10
  let main_c_3 : IVec S_ 1 := constantI S_ 1 1#1
  let main_v12 : IVec S_ 1 := (fun x v => Host.reduce IntOp.andi x v reducesTo_S1280x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x1280 : Shape := ⟨2, ![50000, 1280]⟩
abbrev S50000x3 : Shape := ⟨2, ![50000, 3]⟩
abbrev S2x1600000 : Shape := ⟨2, ![2, 1600000]⟩
abbrev S50000 : Shape := ⟨1, ![50000]⟩
abbrev S1280x128 : Shape := ⟨2, ![1280, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S50000x128 : Shape := ⟨2, ![50000, 128]⟩
abbrev S2000x1280 : Shape := ⟨2, ![2000, 1280]⟩
abbrev S2000x128 : Shape := ⟨2, ![2000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S8000x128 : Shape := ⟨2, ![8000, 128]⟩
abbrev S50000x1 : Shape := ⟨2, ![50000, 1]⟩
abbrev S2000x1 : Shape := ⟨2, ![2000, 1]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 126
  | .vmem => 39
  | .smem => 0
  | _ => 0

abbrev bufTy : (tb : Table) → Fin (tcTables nBuf tb) → BufTy
  | .hbm, ⟨0, _⟩ => ⟨S50000x1280, .f32⟩
  | .hbm, ⟨1, _⟩ => ⟨S50000x3, .f32⟩
  | .hbm, ⟨2, _⟩ => ⟨S2x1600000, .i32⟩
  | .hbm, ⟨3, _⟩ => ⟨S50000, .i32⟩
  | .hbm, ⟨4, _⟩ => ⟨S1280x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S50000x1280, .bf16⟩
  | .hbm, ⟨20, _⟩ => ⟨S1280x128, .bf16⟩
  | .hbm, ⟨21, _⟩ => ⟨S50000x128, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .bf16⟩
  | .hbm, ⟨31, _⟩ => ⟨S128x128, .bf16⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S50000, .f32⟩
  | .hbm, ⟨41, _⟩ => ⟨S1600000x1, .i32⟩
  | .hbm, ⟨42, _⟩ => ⟨S50000, .f32⟩
  | .hbm, ⟨43, _⟩ => ⟨S50000x1, .f32⟩
  | .hbm, ⟨44, _⟩ => ⟨S50000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S128x128, .bf16⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S50000, .f32⟩
  | .hbm, ⟨64, _⟩ => ⟨S1600000x1, .i32⟩
  | .hbm, ⟨65, _⟩ => ⟨S50000, .f32⟩
  | .hbm, ⟨66, _⟩ => ⟨S50000x1, .f32⟩
  | .hbm, ⟨67, _⟩ => ⟨S50000x128, .bf16⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .bf16⟩
  | .hbm, ⟨77, _⟩ => ⟨S128x128, .bf16⟩
  | .hbm, ⟨78, _⟩ => ⟨S1600000x128, .f32⟩
  | .hbm, ⟨79, _⟩ => ⟨S_, .f32⟩
  | .hbm, ⟨80, _⟩ => ⟨S50000x128, .f32⟩
  | .hbm, ⟨81, _⟩ => ⟨S1600000x1, .i32⟩
  | .hbm, ⟨82, _⟩ => ⟨S50000x128, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S50000, .f32⟩
  | .hbm, ⟨87, _⟩ => ⟨S1600000x1, .i32⟩
  | .hbm, ⟨88, _⟩ => ⟨S50000, .f32⟩
  | .hbm, ⟨89, _⟩ => ⟨S50000x1, .f32⟩
  | .hbm, ⟨90, _⟩ => ⟨S50000x128, .bf16⟩
  | .hbm, ⟨91, _⟩ => ⟨S50000x128, .f32⟩
  | .hbm, ⟨92, _⟩ => ⟨S_, .f32⟩
  | .hbm, ⟨93, _⟩ => ⟨S64x128, .f32⟩
  | .hbm, ⟨94, _⟩ => ⟨S50000x1, .i32⟩
  | .hbm, ⟨95, _⟩ => ⟨S64x128, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S64, .f32⟩
  | .hbm, ⟨100, _⟩ => ⟨S50000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x128, .f32⟩
  | .hbm, ⟨107, _⟩ => ⟨S64x128, .f32⟩
  | .hbm, ⟨108, _⟩ => ⟨S64x128, .f32⟩
  | .hbm, ⟨109, _⟩ => ⟨S1x128, .f32⟩
  | .hbm, ⟨110, _⟩ => ⟨S64x128, .f32⟩
  | .hbm, ⟨111, _⟩ => ⟨S64x128, .f32⟩
  | .hbm, ⟨112, _⟩ => ⟨S_, .f32⟩
  | .hbm, ⟨113, _⟩ => ⟨S64x128, .f32⟩
  | .hbm, ⟨114, _⟩ => ⟨S64x128, .f32⟩
  | .hbm, ⟨115, _⟩ => ⟨S64x128, .f32⟩
  | .hbm, ⟨116, _⟩ => ⟨S1x128, .f32⟩
  | .hbm, ⟨117, _⟩ => ⟨S64x128, .f32⟩
  | .hbm, ⟨118, _⟩ => ⟨S64x128, .f32⟩
  | .hbm, ⟨119, _⟩ => ⟨S_, .f32⟩
  | .hbm, ⟨120, _⟩ => ⟨S64x128, .f32⟩
  | .hbm, ⟨121, _⟩ => ⟨S64x128, .f32⟩
  | .hbm, ⟨122, _⟩ => ⟨S64x2, .f32⟩
  | .hbm, ⟨123, _⟩ => ⟨S1x2, .f32⟩
  | .hbm, ⟨124, _⟩ => ⟨S64x2, .f32⟩
  | .hbm, ⟨125, _⟩ => ⟨S64x2, .f32⟩
  | .local _ .vmem, ⟨0, _⟩ => ⟨S2000x1280, .bf16⟩
  | .local _ .vmem, ⟨1, _⟩ => ⟨S2000x1280, .bf16⟩
  | .local _ .vmem, ⟨2, _⟩ => ⟨S1280x128, .bf16⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S8000x128, .bf16⟩
  | .local _ .vmem, ⟨7, _⟩ => ⟨S8000x128, .bf16⟩
  | .local _ .vmem, ⟨8, _⟩ => ⟨S128x128, .bf16⟩
  | .local _ .vmem, ⟨9, _⟩ => ⟨S8000x128, .f32⟩
  | .local _ .vmem, ⟨10, _⟩ => ⟨S8000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S8000x128, .bf16⟩
  | .local _ .vmem, ⟨18, _⟩ => ⟨S8000x128, .bf16⟩
  | .local _ .vmem, ⟨19, _⟩ => ⟨S128x128, .bf16⟩
  | .local _ .vmem, ⟨20, _⟩ => ⟨S8000x128, .f32⟩
  | .local _ .vmem, ⟨21, _⟩ => ⟨S8000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .bf16⟩
  | .local _ .vmem, ⟨27, _⟩ => ⟨S2000x128, .bf16⟩
  | .local _ .vmem, ⟨28, _⟩ => ⟨S8000x128, .bf16⟩
  | .local _ .vmem, ⟨29, _⟩ => ⟨S8000x128, .bf16⟩
  | .local _ .vmem, ⟨30, _⟩ => ⟨S128x128, .bf16⟩
  | .local _ .vmem, ⟨31, _⟩ => ⟨S8000x128, .f32⟩
  | .local _ .vmem, ⟨32, _⟩ => ⟨S8000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x128, .bf16⟩
  | .local _ .vmem, ⟨38, _⟩ => ⟨S2000x128, .bf16⟩
  | _, _ => ⟨S50000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call0_cst : Ref sig .tc := ⟨.hbm, 112, rfl⟩
abbrev main_call0_v0 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call1_cst : Ref sig .tc := ⟨.hbm, 119, rfl⟩
abbrev main_call1_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  inb_S2000x1280_S2000x1280_0_0 : ∀ a, (![0, 0] : Fin 2 → Nat) a + S2000x1280.size a ≤ S2000x1280.size a
  h_S2000x1280 : 0 < S2000x1280.numel
  shapeCasts_S2000x1280_S2000x1280 : S2000x1280.ShapeCasts S2000x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S2000x1280_S1280x128_S2000x128_1_0_0_1_n_n_wf : DotDims.WF S2000x1280 S1280x128 S2000x128 [1] [0] [0] [1] [] []
  gather_S50000x128_S1600000x1_S1600000x128_1_0_n_n_0_1_1128_wf : GatherDims.WF S50000x128 S1600000x1 S1600000x128 [1] [0] [] [0] [] 1 ![1, 128]
  dot_S8000x128_S128x128_S8000x128_1_0_0_1_n_n_wf : DotDims.WF S8000x128 S128x128 S8000x128 [1] [0] [0] [1] [] []
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1280.size a ≤ S50000x1280.size a
  hwx0_0 : ∀ i : grid0.Coords, EltTy.bits .bf16 = 32 ∨ (Rect.block (s := S50000x1280) S2000x1280.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .bf16 = 32 ∨ (Rect.block (s := S1280x128) S1280x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .bf16 = 32 ∨ (Rect.block (s := S1600000x128) S8000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S1600000x128.size a
  hwx3_0 : ∀ i : grid3.Coords, EltTy.bits .bf16 = 32 ∨ (Rect.block (s := S1600000x128) S8000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S1600000x128.size a
  hwx3_2 : ∀ i : grid3.Coords, EltTy.bits .f32 = 32 ∨ (Rect.block (s := S1600000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S1600000x128.size a
  hwx5_0 : ∀ i : grid5.Coords, EltTy.bits .bf16 = 32 ∨ (Rect.block (s := S1600000x128) S8000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x128.size a ≤ S1600000x128.size a
  hwx5_2 : ∀ i : grid5.Coords, EltTy.bits .f32 = 32 ∨ (Rect.block (s := S1600000x128) S8000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .bf16 = 32 ∨ (Rect.block (s := S50000x128) S2000x128.size (cc6_transform_2 i) (hinb6_2 i)).WholeWords (EltTy.packing .bf16)

variable [Facts₀]

def dot_S2000x1280_S1280x128_S2000x128_1_0_0_1_n_n : DotDims S2000x1280 S1280x128 S2000x128 where
  lhsContracting := [1]
  rhsContracting := [0]
  lhsNonContracting := [0]
  rhsNonContracting := [1]
  lhsBatch := []
  rhsBatch := []
  wf := dot_S2000x1280_S1280x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v4) S2000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S8000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v54) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v60) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x1280 : Shape := ⟨2, ![50000, 1280]⟩
abbrev S50000x3 : Shape := ⟨2, ![50000, 3]⟩
abbrev S2x1600000 : Shape := ⟨2, ![2, 1600000]⟩
abbrev S50000 : Shape := ⟨1, ![50000]⟩
abbrev S1280x128 : Shape := ⟨2, ![1280, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S50000x128 : Shape := ⟨2, ![50000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 161
  | .vmem => 0
  | .smem => 0
  | _ => 0

abbrev hbmTy0_0 (i : Nat) : BufTy := match i % 128 with
  | 0 => ⟨S50000x1280, .f32⟩
  | 1 => ⟨S50000x3, .f32⟩
  | 2 => ⟨S2x1600000, .i32⟩
  | 3 => ⟨S50000, .i32⟩
  | 4 => ⟨S1280x128, .f32⟩
  | 5 => ⟨S128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S2, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S1600000x128, .f32⟩
  | 36 => ⟨S_, .f32⟩
  | 37 => ⟨S1600000x128, .f32⟩
  | 38 => ⟨S1600000x128, .f32⟩
  | 39 => ⟨S_, .f32⟩
  | 40 => ⟨S50000x128, .f32⟩
  | 41 => ⟨S1600000x1, .i32⟩
  | 42 => ⟨S50000x128, .f32⟩
  | 43 => ⟨S_, .f32⟩
  | 44 => ⟨S1600000, .f32⟩
  | 45 => ⟨S_, .f32⟩
  | 46 => ⟨S50000, .f32⟩
  | 47 => ⟨S1600000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x1600000, .i32⟩
  | 59 => ⟨S1600000, .i32⟩
  | 60 => ⟨S1x1600000, .i32⟩
  | 61 => ⟨S1600000, .i32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S1600000x128, .f32⟩
  | 72 => ⟨S_, .f32⟩
  | 73 => ⟨S1600000x128, .f32⟩
  | 74 => ⟨S1600000x128, .f32⟩
  | 75 => ⟨S_, .f32⟩
  | 76 => ⟨S50000x128, .f32⟩
  | 77 => ⟨S1600000x1, .i32⟩
  | 78 => ⟨S50000x128, .f32⟩
  | 79 => ⟨S_, .f32⟩
  | 80 => ⟨S1600000, .f32⟩
  | 81 => ⟨S_, .f32⟩
  | 82 => ⟨S50000, .f32⟩
  | 83 => ⟨S1600000x1, .i32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x128, .f32⟩
  | 108 => ⟨S_, .f32⟩
  | 109 => ⟨S1600000x128, .f32⟩
  | 110 => ⟨S1600000x128, .f32⟩
  | 111 => ⟨S_, .f32⟩
  | 112 => ⟨S50000x128, .f32⟩
  | 113 => ⟨S1600000x1, .i32⟩
  | 114 => ⟨S50000x128, .f32⟩
  | 115 => ⟨S_, .f32⟩
  | 116 => ⟨S1600000, .f32⟩
  | 117 => ⟨S_, .f32⟩
  | 118 => ⟨S50000, .f32⟩
  | 119 => ⟨S1600000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S_, .f32⟩
  | _ => ⟨S50000x1280, .f32⟩

abbrev hbmTy0_1 (i : Nat) : BufTy := match i % 128 with
  | 0 => ⟨S64x128, .f32⟩
  | 1 => ⟨S50000x1, .i32⟩
  | 2 => ⟨S64x128, .f32⟩
  | 3 => ⟨S_, .f32⟩
  | 4 => ⟨S50000, .f32⟩
  | 5 => ⟨S_, .f32⟩
  | 6 => ⟨S64, .f32⟩
  | 7 => ⟨S50000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x128, .f32⟩
  | 16 => ⟨S1x128, .f32⟩
  | 17 => ⟨S64x128, .f32⟩
  | 18 => ⟨S64x128, .f32⟩
  | 19 => ⟨S_, .f32⟩
  | 20 => ⟨S64x128, .f32⟩
  | 21 => ⟨S64x128, .f32⟩
  | 22 => ⟨S64x128, .f32⟩
  | 23 => ⟨S1x128, .f32⟩
  | 24 => ⟨S64x128, .f32⟩
  | 25 => ⟨S64x128, .f32⟩
  | 26 => ⟨S_, .f32⟩
  | 27 => ⟨S64x128, .f32⟩
  | 28 => ⟨S64x128, .f32⟩
  | 29 => ⟨S64x2, .f32⟩
  | 30 => ⟨S1x2, .f32⟩
  | 31 => ⟨S64x2, .f32⟩
  | 32 => ⟨S64x2, .f32⟩
  | _ => ⟨S50000x1280, .f32⟩

abbrev hbmTy (i : Nat) : BufTy := match i / 128 with
  | 0 => hbmTy0_0 i
  | 1 => hbmTy0_1 i
  | _ => ⟨S50000x1280, .f32⟩

abbrev bufTy : (tb : Table) → Fin (tcTables nBuf tb) → BufTy
  | .hbm, ⟨i, _⟩ => hbmTy i
  | _, _ => ⟨S50000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_cst : Ref sig .tc := ⟨.hbm, 55, rfl⟩
abbrev main_call1_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call2_cst : Ref sig .tc := ⟨.hbm, 91, rfl⟩
abbrev main_call2_v0 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call3_cst : Ref sig .tc := ⟨.hbm, 147, rfl⟩
abbrev main_call3_v0 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_call4_cst : Ref sig .tc := ⟨.hbm, 154, rfl⟩
abbrev main_call4_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x1280_S1280x128_S50000x128_1_0_0_1_n_n_wf : DotDims.WF S50000x1280 S1280x128 S50000x128 [1] [0] [0] [1] [] []
  gather_S50000x128_S1600000x1_S1600000x128_1_0_n_n_0_1_1128_wf : GatherDims.WF S50000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def dot_S50000x1280_S1280x128_S50000x128_1_0_0_1_n_n : DotDims S50000x1280 S1280x128 S50000x128 where
  lhsContracting := [1]
  rhsContracting := [0]
  lhsNonContracting := [0]
  rhsNonContracting := [1]
  lhsBatch := []
  rhsBatch := []
  wf := dot_S50000x1280_S1280x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel's run with its results named.

  The program is seven pipelined regions among stretches of host operations. Its buffer contents at every
  boundary between two such segments are a fold from the launch memory: a host stretch applies its operations, a
  region leaves its arrays at what its write-backs produce and every other buffer as it found it. The last of
  these contents is where every execution ends: every weakly fair execution terminates, nothing faulting, with each
  unscoped buffer of every core at the last boundary's contents — in particular the two result buffers, and the
  arguments (which walk back to the launch memory).
-/
import proofs.«126142_j19722489823976_1_alg».proof.Proof.Gen.KernelIdeal.Frame

set_option maxRecDepth 16384

noncomputable section

namespace Cert.KernelIdeal.Outputs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The two results at the last boundary's contents, the arguments as launched. -/
theorem run_results : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_v73) = W19 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v87 (by decide)),
       h c _ (mem_uc main_v73 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)
    (run_all m ρ)

end Cert.KernelIdeal.Outputs

end
-- ==== Proof.Net.lean ====
/-
  The network both programs compute, as one composition of named stages.

  A graph network over 50000 nodes and 1600000 edges: a dense layer with bias and a rectifier on the node features;
  three rounds of message passing — every edge takes its source node's row, multiplies it by a weight matrix and a
  fixed scale, and every node averages the messages of the edges that point at it (the sum divided by the larger of
  the edge count and one) —, the first two rounds followed by a rectifier; an average of the node rows over each of
  64 graphs; and a three-layer classifier on the graph rows. The stages are spelt with the reference program's own
  operations, so that its composed result term is this composition by unfolding.
-/
import proofs.«126142_j19722489823976_1_alg».proof.Proof.Gen.ReferenceIdeal
import Idealize.ShloMosaic.PureOps.Ideal

noncomputable section

namespace Cert.Net

open Idealize.ShloMosaic Cert.ReferenceIdeal Cert.ReferenceIdeal.Facts₀ Cert.ReferenceIdeal.Facts

variable {F : FTy → Type} [FloatOps F]

/-- Float and integer arrays of a shape. -/
abbrev FA (s : Shape) := (⟨s, .f32⟩ : BufTy).Contents (Elt F)
abbrev IA (s : Shape) := (⟨s, .i32⟩ : BufTy).Contents (Elt F)

/-- A float scalar constant repeated over a shape. -/
def fill (s : Shape) (h : S_.BroadcastsInDim s ![]) (w : BitVec 32) : FA (F := F) s :=
  broadcastInDim s ![] h (constant S_ .f32 w : FA (F := F) S_)

/-- The edges' source nodes: row 0 of the edge list. -/
def src (e : IA (F := F) S2x1600000) : IA (F := F) S1600000 :=
  shapeCast _ (extractStridedSlice S1x1600000 ![0, 0] e slices_S2x1600000_S1x1600000_0_0) shapeCasts_S1x1600000_S1600000

/-- The edges' target nodes: row 1 of the edge list. -/
def dst (e : IA (F := F) S2x1600000) : IA (F := F) S1600000 :=
  shapeCast _ (extractStridedSlice S1x1600000 ![1, 0] e slices_S2x1600000_S1x1600000_1_0) shapeCasts_S1x1600000_S1600000

/-- The source nodes as a column of row numbers, a negative number counted from the end. -/
def srcCol (e : IA (F := F) S2x1600000) : IA (F := F) S1600000x1 :=
  broadcastInDim S1600000x1 ![0] bcast_S1600000_S1600000x1_0
    (select (cmpi .slt (src e) (broadcastInDim S1600000 ![] bcast_S_S1600000 (constantI S_ 32 0#32 : IA (F := F) S_)))
      (addi (src e) (broadcastInDim S1600000 ![] bcast_S_S1600000 (constantI S_ 32 50000#32 : IA (F := F) S_))) (src e))

/-- The target nodes as a column. -/
def dstCol (e : IA (F := F) S2x1600000) : IA (F := F) S1600000x1 :=
  broadcastInDim S1600000x1 ![0] bcast_S1600000_S1600000x1_0 (dst e)

/-- The rectifier on node rows. -/
def relu (h : FA (F := F) S50000x128) : FA (F := F) S50000x128 :=
  maximumf h (fill S50000x128 bcast_S_S50000x128 0x00000000#32)

/-- The input layer before its rectifier: features times weights plus the bias row. -/
def lin (x : FA (F := F) S50000x1280) (w : FA (F := F) S1280x128) (b : FA (F := F) S128) : FA (F := F) S50000x128 :=
  addf (Host.dotGeneral dot_S50000x1280_S1280x128_S50000x128_1_0_0_1_n_n none x w)
    (broadcastInDim S50000x128 ![0, 1] bcast_S1x128_S50000x128_0_1 (broadcastInDim S1x128 ![1] bcast_S128_S1x128_1 b))

/-- The edges' messages from their gathered source rows: times the weights, times the fixed scale. -/
def msg (g : FA (F := F) S1600000x128) (w : FA (F := F) S128x128) : FA (F := F) S1600000x128 :=
  mulf (Host.dotGeneral dot_S1600000x128_S128x128_S1600000x128_1_0_0_1_n_n none g w)
    (fill S1600000x128 bcast_S_S1600000x128 0x3CCC422A#32)

/-- Each node's sum of the messages of the edges pointing at it. -/
def agg (e : IA (F := F) S2x1600000) (u : FA (F := F) S1600000x128) : FA (F := F) S50000x128 :=
  Host.scatterAdd scatter_S50000x128_S1600000x1_S1600000x128_1_0_0_1 (fill S50000x128 bcast_S_S50000x128 0x00000000#32) (dstCol e) u

/-- Each node's number of edges pointing at it. -/
def deg (e : IA (F := F) S2x1600000) : FA (F := F) S50000 :=
  Host.scatterAdd scatter_S50000_S1600000x1_S1600000_n_0_0_1 (fill S50000 bcast_S_S50000 0x00000000#32) (dstCol e)
    (fill S1600000 bcast_S_S1600000 0x3F800000#32)

/-- A node's sum over the larger of its count and one. -/
def mean (s : FA (F := F) S50000x128) (n : FA (F := F) S50000) : FA (F := F) S50000x128 :=
  Host.divf s (broadcastInDim S50000x128 ![0, 1] bcast_S50000x1_S50000x128_0_1
    (broadcastInDim S50000x1 ![0] bcast_S50000_S50000x1_0 (maximumf n (fill S50000 bcast_S_S50000 0x3F800000#32))))

/-- One round of message passing. -/
def conv (h : FA (F := F) S50000x128) (e : IA (F := F) S2x1600000) (w : FA (F := F) S128x128) : FA (F := F) S50000x128 :=
  mean (agg e (msg (Host.gather gather_S50000x128_S1600000x1_S1600000x128_1_0_n_n_0_1_1128 h (srcCol e)) w)) (deg e)

/-- The node rows after the three rounds. -/
def nodes (x : FA (F := F) S50000x1280) (e : IA (F := F) S2x1600000) (lw : FA (F := F) S1280x128) (lb : FA (F := F) S128)
    (w1 w2 w3 : FA (F := F) S128x128) : FA (F := F) S50000x128 :=
  conv (relu (conv (relu (conv (relu (lin x lw lb)) e w1)) e w2)) e w3

/-- The average of the node rows over each graph. -/
def pool (h : FA (F := F) S50000x128) (b : IA (F := F) S50000) : FA (F := F) S64x128 :=
  Host.divf
    (Host.scatterAdd scatter_S64x128_S50000x1_S50000x128_1_0_0_1 (fill S64x128 bcast_S_S64x128 0x00000000#32)
      (broadcastInDim S50000x1 ![0] bcast_S50000_S50000x1_0 b) h)
    (broadcastInDim S64x128 ![0, 1] bcast_S64x1_S64x128_0_1 (broadcastInDim S64x1 ![0] bcast_S64_S64x1_0
      (maximumf (Host.scatterAdd scatter_S64_S50000x1_S50000_n_0_0_1 (fill S64 bcast_S_S64 0x00000000#32)
          (broadcastInDim S50000x1 ![0] bcast_S50000_S50000x1_0 b) (fill S50000 bcast_S_S50000 0x3F800000#32))
        (fill S64 bcast_S_S64 0x3F800000#32))))

/-- A hidden layer of the classifier before its rectifier: graph rows times weights plus the bias row. -/
def pre (z : FA (F := F) S64x128) (w : FA (F := F) S128x128) (b : FA (F := F) S128) : FA (F := F) S64x128 :=
  addf (Host.dotGeneral dot_S64x128_S128x128_S64x128_1_0_0_1_n_n none z w)
    (broadcastInDim S64x128 ![0, 1] bcast_S1x128_S64x128_0_1 (broadcastInDim S1x128 ![1] bcast_S128_S1x128_1 b))

/-- The rectifier on graph rows. -/
def rect (z : FA (F := F) S64x128) : FA (F := F) S64x128 :=
  maximumf z (fill S64x128 bcast_S_S64x128 0x00000000#32)

/-- A hidden layer of the classifier. -/
def hidden (z : FA (F := F) S64x128) (w : FA (F := F) S128x128) (b : FA (F := F) S128) : FA (F := F) S64x128 :=
  rect (pre z w b)

/-- The classifier's output layer. -/
def logits (z : FA (F := F) S64x128) (w : FA (F := F) S128x2) (b : FA (F := F) S2) : FA (F := F) S64x2 :=
  addf (Host.dotGeneral dot_S64x128_S128x2_S64x2_1_0_0_1_n_n none z w)
    (broadcastInDim S64x2 ![0, 1] bcast_S1x2_S64x2_0_1 (broadcastInDim S1x2 ![1] bcast_S2_S1x2_1 b))

end Cert.Net

end
-- ==== Proof.Carry.lean ====
/-
  The buffers that stay as they are from the first region on.

  The argument arrays that later segments read (the graph assignment, the three rounds' weights, the classifier's
  weights and biases) and the two halves of the edge list (its source and target nodes, cut out before the first
  region) are written by no later host operation and are no region's array. So at every boundary between two
  segments after the first stretch each of them holds what it held when the first region was entered; and every
  argument held its launch contents there.
-/
import proofs.«126142_j19722489823976_1_alg».proof.Proof.Gen.KernelIdeal.Frame
import proofs.«126142_j19722489823976_1_alg».proof.Proof.Net

set_option maxRecDepth 16384

noncomputable section

namespace Cert.KernelIdeal.Carry

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg)

/-- The arguments read after the first region, and the edge list's two halves. -/
def kept : List (Ref sig .tc) := [main_arg3, main_arg6, main_arg7, main_arg8, main_arg9, main_arg10, main_arg11, main_arg12, main_arg13, main_arg14, main_v1, main_v3]

/-- A host stretch leaves a buffer alone when none of its operations writes it. -/
macro "host_keeps " ops:ident : term =>
  `(StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem keep2 (c : Dev nD) : ∀ b ∈ kept, W2 m ρ c (Proc.devRef .tc b) = W1 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W2_of_ne m ρ c _ (by decide)

theorem keep3 (c : Dev nD) : ∀ b ∈ kept, W3 m ρ c (Proc.devRef .tc b) = W2 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps1

theorem keep4 (c : Dev nD) : ∀ b ∈ kept, W4 m ρ c (Proc.devRef .tc b) = W3 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W4_of_ne m ρ c _ (by decide)

theorem keep5 (c : Dev nD) : ∀ b ∈ kept, W5 m ρ c (Proc.devRef .tc b) = W4 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps2

theorem keep6 (c : Dev nD) : ∀ b ∈ kept, W6 m ρ c (Proc.devRef .tc b) = W5 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W6_of_ne m ρ c _ (by decide)

theorem keep7 (c : Dev nD) : ∀ b ∈ kept, W7 m ρ c (Proc.devRef .tc b) = W6 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps3

theorem keep8 (c : Dev nD) : ∀ b ∈ kept, W8 m ρ c (Proc.devRef .tc b) = W7 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W8_of_ne m ρ c _ (by decide)

theorem keep9 (c : Dev nD) : ∀ b ∈ kept, W9 m ρ c (Proc.devRef .tc b) = W8 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps4

theorem keep10 (c : Dev nD) : ∀ b ∈ kept, W10 m ρ c (Proc.devRef .tc b) = W9 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W10_of_ne m ρ c _ (by decide)

theorem keep11 (c : Dev nD) : ∀ b ∈ kept, W11 m ρ c (Proc.devRef .tc b) = W10 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps5

theorem keep12 (c : Dev nD) : ∀ b ∈ kept, W12 m ρ c (Proc.devRef .tc b) = W11 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W12_of_ne m ρ c _ (by decide)

theorem keep13 (c : Dev nD) : ∀ b ∈ kept, W13 m ρ c (Proc.devRef .tc b) = W12 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps6

theorem keep14 (c : Dev nD) : ∀ b ∈ kept, W14 m ρ c (Proc.devRef .tc b) = W13 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact W14_of_ne m ρ c _ (by decide)

theorem keep15 (c : Dev nD) : ∀ b ∈ kept, W15 m ρ c (Proc.devRef .tc b) = W14 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps7

theorem keep16 (c : Dev nD) : ∀ b ∈ kept, W16 m ρ c (Proc.devRef .tc b) = W15 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps7_1

theorem keep17 (c : Dev nD) : ∀ b ∈ kept, W17 m ρ c (Proc.devRef .tc b) = W16 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps7_2

theorem keep18 (c : Dev nD) : ∀ b ∈ kept, W18 m ρ c (Proc.devRef .tc b) = W17 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps7_3

theorem keep19 (c : Dev nD) : ∀ b ∈ kept, W19 m ρ c (Proc.devRef .tc b) = W18 m ρ c (Proc.devRef .tc b) := by
  intro b hb
  simp only [kept, List.mem_cons, List.mem_nil_iff, or_false] at hb
  rcases hb with rfl | rfl | rfl | rfl | rfl | rfl | rfl | rfl | rfl | rfl | rfl | rfl
  all_goals exact host_keeps hostOps7_4

/-- From any later boundary back to the first region's entry. -/
theorem back2 (c : Dev nD) : ∀ b ∈ kept, W2 m ρ c (Proc.devRef .tc b) = W1 m ρ c (Proc.devRef .tc b) :=
  fun b hb => keep2 m ρ c b hb
theorem back3 (c : Dev nD) : ∀ b ∈ kept, W3 m ρ c (Proc.devRef .tc b) = W1 m ρ c (Proc.devRef .tc b) :=
  fun b hb => (keep3 m ρ c b hb).trans (back2 m ρ c b hb)
theorem back4 (c : Dev nD) : ∀ b ∈ kept, W4 m ρ c (Proc.devRef .tc b) = W1 m ρ c (Proc.devRef .tc b) :=
  fun b hb => (keep4 m ρ c b hb).trans (back3 m ρ c b hb)
theorem back5 (c : Dev nD) : ∀ b ∈ kept, W5 m ρ c (Proc.devRef .tc b) = W1 m ρ c (Proc.devRef .tc b) :=
  fun b hb => (keep5 m ρ c b hb).trans (back4 m ρ c b hb)
theorem back6 (c : Dev nD) : ∀ b ∈ kept, W6 m ρ c (Proc.devRef .tc b) = W1 m ρ c (Proc.devRef .tc b) :=
  fun b hb => (keep6 m ρ c b hb).trans (back5 m ρ c b hb)
theorem back7 (c : Dev nD) : ∀ b ∈ kept, W7 m ρ c (Proc.devRef .tc b) = W1 m ρ c (Proc.devRef .tc b) :=
  fun b hb => (keep7 m ρ c b hb).trans (back6 m ρ c b hb)
theorem back8 (c : Dev nD) : ∀ b ∈ kept, W8 m ρ c (Proc.devRef .tc b) = W1 m ρ c (Proc.devRef .tc b) :=
  fun b hb => (keep8 m ρ c b hb).trans (back7 m ρ c b hb)
theorem back9 (c : Dev nD) : ∀ b ∈ kept, W9 m ρ c (Proc.devRef .tc b) = W1 m ρ c (Proc.devRef .tc b) :=
  fun b hb => (keep9 m ρ c b hb).trans (back8 m ρ c b hb)
theorem back10 (c : Dev nD) : ∀ b ∈ kept, W10 m ρ c (Proc.devRef .tc b) = W1 m ρ c (Proc.devRef .tc b) :=
  fun b hb => (keep10 m ρ c b hb).trans (back9 m ρ c b hb)
theorem back11 (c : Dev nD) : ∀ b ∈ kept, W11 m ρ c (Proc.devRef .tc b) = W1 m ρ c (Proc.devRef .tc b) :=
  fun b hb => (keep11 m ρ c b hb).trans (back10 m ρ c b hb)
theorem back12 (c : Dev nD) : ∀ b ∈ kept, W12 m ρ c (Proc.devRef .tc b) = W1 m ρ c (Proc.devRef .tc b) :=
  fun b hb => (keep12 m ρ c b hb).trans (back11 m ρ c b hb)
theorem back13 (c : Dev nD) : ∀ b ∈ kept, W13 m ρ c (Proc.devRef .tc b) = W1 m ρ c (Proc.devRef .tc b) :=
  fun b hb => (keep13 m ρ c b hb).trans (back12 m ρ c b hb)
theorem back14 (c : Dev nD) : ∀ b ∈ kept, W14 m ρ c (Proc.devRef .tc b) = W1 m ρ c (Proc.devRef .tc b) :=
  fun b hb => (keep14 m ρ c b hb).trans (back13 m ρ c b hb)
theorem back15 (c : Dev nD) : ∀ b ∈ kept, W15 m ρ c (Proc.devRef .tc b) = W1 m ρ c (Proc.devRef .tc b) :=
  fun b hb => (keep15 m ρ c b hb).trans (back14 m ρ c b hb)
theorem back16 (c : Dev nD) : ∀ b ∈ kept, W16 m ρ c (Proc.devRef .tc b) = W1 m ρ c (Proc.devRef .tc b) :=
  fun b hb => (keep16 m ρ c b hb).trans (back15 m ρ c b hb)
theorem back17 (c : Dev nD) : ∀ b ∈ kept, W17 m ρ c (Proc.devRef .tc b) = W1 m ρ c (Proc.devRef .tc b) :=
  fun b hb => (keep17 m ρ c b hb).trans (back16 m ρ c b hb)
theorem back18 (c : Dev nD) : ∀ b ∈ kept, W18 m ρ c (Proc.devRef .tc b) = W1 m ρ c (Proc.devRef .tc b) :=
  fun b hb => (keep18 m ρ c b hb).trans (back17 m ρ c b hb)
theorem back19 (c : Dev nD) : ∀ b ∈ kept, W19 m ρ c (Proc.devRef .tc b) = W1 m ρ c (Proc.devRef .tc b) :=
  fun b hb => (keep19 m ρ c b hb).trans (back18 m ρ c b hb)

/-- An argument holds its launch contents when the first region is entered. -/
theorem arg1 (c : Dev nD) : ∀ b ∈ [main_arg0, main_arg1, main_arg2, main_arg3, main_arg4, main_arg5, main_arg6, main_arg7, main_arg8, main_arg9, main_arg10, main_arg11, main_arg12, main_arg13, main_arg14],
    W1 m ρ c (Proc.devRef .tc b) = m ((c : Thread nD τ).loc b) := by
  intro b hb
  simp only [List.mem_cons, List.mem_nil_iff, or_false] at hb
  rcases hb with rfl | rfl | rfl | rfl | rfl | rfl | rfl | rfl | rfl | rfl | rfl | rfl | rfl | rfl | rfl
  all_goals (show StableHlo.after hostOps0 (W0 m ρ c) _ = W0 m ρ c _; exact host_keeps hostOps0)

end Cert.KernelIdeal.Carry

end
-- ==== Proof.Stretches.lean ====
/-
  What each stretch of host operations between the regions computes, from any buffer contents.

  Before the first region the program cuts the edge list into source and target nodes and passes the features and
  the input weights on (their change of float format is the identity on the extended reals). Before each message
  region it gathers the source nodes' rows of the current node array and passes that round's weights on; after it,
  it adds the messages, and a one per edge, into the target nodes and recasts the counts as a column. After the last
  region it pools the node rows per graph and runs the classifier (whose products ask for full precision, which
  changes nothing on the extended reals). Each stretch's results are the network's stages of what it reads.
-/
import proofs.«126142_j19722489823976_1_alg».proof.Proof.Gen.KernelIdeal.Launch
import proofs.«126142_j19722489823976_1_alg».proof.Proof.Net
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo Cert.KernelIdeal Cert.KernelIdeal.Gen

variable (W : Valuation τ sig (Elt Ideal))

/-! ## Before region 0 -/

theorem ops0_src : StableHlo.after hostOps0 W (Proc.devRef .tc main_v1) = Cert.Net.src (F := Ideal) (W (Proc.devRef .tc main_arg2)) := by
  after_results; rfl

theorem ops0_dst : StableHlo.after hostOps0 W (Proc.devRef .tc main_v3) = Cert.Net.dst (F := Ideal) (W (Proc.devRef .tc main_arg2)) := by
  after_results; rfl

theorem ops0_x : StableHlo.after hostOps0 W (Proc.devRef .tc main_v4) = W (Proc.devRef .tc main_arg0) := by
  after_results; rfl

theorem ops0_w : StableHlo.after hostOps0 W (Proc.devRef .tc main_v5) = W (Proc.devRef .tc main_arg4) := by
  after_results; rfl

/-! ## Before each message region: the gathered source rows and the round's weights -/

theorem ops1_rows (e : Cert.Net.IA (F := Ideal) Cert.ReferenceIdeal.S2x1600000) (h1 : W (Proc.devRef .tc main_v1) = Cert.Net.src (F := Ideal) e) :
    StableHlo.after hostOps1 W (Proc.devRef .tc main_v13)
      = Host.gather Cert.ReferenceIdeal.gather_S50000x128_S1600000x1_S1600000x128_1_0_n_n_0_1_1128 (W (Proc.devRef .tc main_v6)) (Cert.Net.srcCol (F := Ideal) e) := by
  after_results; rw [h1]; rfl

theorem ops1_w : StableHlo.after hostOps1 W (Proc.devRef .tc main_v14) = W (Proc.devRef .tc main_arg6) := by
  after_results; rfl

theorem ops3_rows (e : Cert.Net.IA (F := Ideal) Cert.ReferenceIdeal.S2x1600000) (h1 : W (Proc.devRef .tc main_v1) = Cert.Net.src (F := Ideal) e) :
    StableHlo.after hostOps3 W (Proc.devRef .tc main_v31)
      = Host.gather Cert.ReferenceIdeal.gather_S50000x128_S1600000x1_S1600000x128_1_0_n_n_0_1_1128 (W (Proc.devRef .tc main_v24)) (Cert.Net.srcCol (F := Ideal) e) := by
  after_results; rw [h1]; rfl

theorem ops3_w : StableHlo.after hostOps3 W (Proc.devRef .tc main_v32) = W (Proc.devRef .tc main_arg7) := by
  after_results; rfl

theorem ops5_rows (e : Cert.Net.IA (F := Ideal) Cert.ReferenceIdeal.S2x1600000) (h1 : W (Proc.devRef .tc main_v1) = Cert.Net.src (F := Ideal) e) :
    StableHlo.after hostOps5 W (Proc.devRef .tc main_v49)
      = Host.gather Cert.ReferenceIdeal.gather_S50000x128_S1600000x1_S1600000x128_1_0_n_n_0_1_1128 (W (Proc.devRef .tc main_v42)) (Cert.Net.srcCol (F := Ideal) e) := by
  after_results; rw [h1]; rfl

theorem ops5_w : StableHlo.after hostOps5 W (Proc.devRef .tc main_v50) = W (Proc.devRef .tc main_arg8) := by
  after_results; rfl

/-! ## After each message region: the sums and the counts -/

theorem ops2_sum (e : Cert.Net.IA (F := Ideal) Cert.ReferenceIdeal.S2x1600000) (h3 : W (Proc.devRef .tc main_v3) = Cert.Net.dst (F := Ideal) e) :
    StableHlo.after hostOps2 W (Proc.devRef .tc main_v18) = Cert.Net.agg (F := Ideal) e (W (Proc.devRef .tc main_v15)) := by
  after_results; rw [h3]; rfl

theorem ops2_cnt (e : Cert.Net.IA (F := Ideal) Cert.ReferenceIdeal.S2x1600000) (h3 : W (Proc.devRef .tc main_v3) = Cert.Net.dst (F := Ideal) e) :
    StableHlo.after hostOps2 W (Proc.devRef .tc main_v23) = shapeCast S50000x1 (Cert.Net.deg (F := Ideal) e) shapeCasts_S50000_S50000x1 := by
  after_results; rw [h3]; rfl

theorem ops4_sum (e : Cert.Net.IA (F := Ideal) Cert.ReferenceIdeal.S2x1600000) (h3 : W (Proc.devRef .tc main_v3) = Cert.Net.dst (F := Ideal) e) :
    StableHlo.after hostOps4 W (Proc.devRef .tc main_v36) = Cert.Net.agg (F := Ideal) e (W (Proc.devRef .tc main_v33)) := by
  after_results; rw [h3]; rfl

theorem ops4_cnt (e : Cert.Net.IA (F := Ideal) Cert.ReferenceIdeal.S2x1600000) (h3 : W (Proc.devRef .tc main_v3) = Cert.Net.dst (F := Ideal) e) :
    StableHlo.after hostOps4 W (Proc.devRef .tc main_v41) = shapeCast S50000x1 (Cert.Net.deg (F := Ideal) e) shapeCasts_S50000_S50000x1 := by
  after_results; rw [h3]; rfl

theorem ops6_sum (e : Cert.Net.IA (F := Ideal) Cert.ReferenceIdeal.S2x1600000) (h3 : W (Proc.devRef .tc main_v3) = Cert.Net.dst (F := Ideal) e) :
    StableHlo.after hostOps6 W (Proc.devRef .tc main_v54) = Cert.Net.agg (F := Ideal) e (W (Proc.devRef .tc main_v51)) := by
  after_results; rw [h3]; rfl

theorem ops6_cnt (e : Cert.Net.IA (F := Ideal) Cert.ReferenceIdeal.S2x1600000) (h3 : W (Proc.devRef .tc main_v3) = Cert.Net.dst (F := Ideal) e) :
    StableHlo.after hostOps6 W (Proc.devRef .tc main_v59) = shapeCast S50000x1 (Cert.Net.deg (F := Ideal) e) shapeCasts_S50000_S50000x1 := by
  after_results; rw [h3]; rfl

/-! ## After the last region: the pooling and the classifier -/

set_option maxHeartbeats 4000000 in
theorem ops7_rows : StableHlo.after hostOps7 W (Proc.devRef .tc main_v73)
    = Cert.Net.pool (F := Ideal) (W (Proc.devRef .tc main_v60)) (W (Proc.devRef .tc main_arg3)) := by
  after_results_simp; rfl

set_option maxHeartbeats 4000000 in
theorem ops7_pre : StableHlo.after hostOps7 W (Proc.devRef .tc main_v77)
    = Cert.Net.pre (F := Ideal) (Cert.Net.pool (F := Ideal) (W (Proc.devRef .tc main_v60)) (W (Proc.devRef .tc main_arg3)))
        (W (Proc.devRef .tc main_arg9)) (W (Proc.devRef .tc main_arg10)) := by
  after_results_simp; rfl

theorem ops7_1_rect : StableHlo.after hostOps7_1 W (Proc.devRef .tc main_v78) = Cert.Net.rect (F := Ideal) (W (Proc.devRef .tc main_v77)) := by
  after_results; rfl

theorem ops7_2_pre : StableHlo.after hostOps7_2 W (Proc.devRef .tc main_v82)
    = Cert.Net.pre (F := Ideal) (W (Proc.devRef .tc main_v78)) (W (Proc.devRef .tc main_arg11)) (W (Proc.devRef .tc main_arg12)) := by
  after_results; rfl

theorem ops7_3_rect : StableHlo.after hostOps7_3 W (Proc.devRef .tc main_v83) = Cert.Net.rect (F := Ideal) (W (Proc.devRef .tc main_v82)) := by
  after_results; rfl

theorem ops7_4_out : StableHlo.after hostOps7_4 W (Proc.devRef .tc main_v87)
    = Cert.Net.logits (F := Ideal) (W (Proc.devRef .tc main_v83)) (W (Proc.devRef .tc main_arg13)) (W (Proc.devRef .tc main_arg14)) := by
  after_results; rfl

/-- The pooled rows pass through the classifier's stretches untouched. -/
theorem ops7_1_keep : StableHlo.after hostOps7_1 W (Proc.devRef .tc main_v73) = W (Proc.devRef .tc main_v73) := by
  after_results
theorem ops7_2_keep : StableHlo.after hostOps7_2 W (Proc.devRef .tc main_v73) = W (Proc.devRef .tc main_v73) := by
  after_results
theorem ops7_3_keep : StableHlo.after hostOps7_3 W (Proc.devRef .tc main_v73) = W (Proc.devRef .tc main_v73) := by
  after_results
theorem ops7_4_keep : StableHlo.after hostOps7_4 W (Proc.devRef .tc main_v73) = W (Proc.devRef .tc main_v73) := by
  after_results

end Cert.KernelIdeal.Stretch

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«126142_j19722489823976_1_alg».proof.Proof.LibMatmul2
import proofs.«126142_j19722489823976_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«126142_j19722489823976_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«126142_j19722489823976_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.BodyLin.lean ====
/-
  The input layer's block and the input stage, read at an index.

  One block holds 2000 nodes' feature rows; the body multiplies them by the 1280 x 128 weight matrix into a zero
  accumulator, adds the bias row and takes the larger of that and zero. At row p and column q:
  max((sum over k of feature(p, k) * weight(k, q)) + bias(q), 0). The stage of the network is the same on all 50000
  nodes at once.
-/
import proofs.«126142_j19722489823976_1_alg».proof.Proof.Gen.KernelIdeal.Skeleton
import proofs.«126142_j19722489823976_1_alg».proof.Proof.Net
import proofs.«126142_j19722489823976_1_alg».proof.Proof.LibEntryReads
import proofs.«126142_j19722489823976_1_alg».proof.Proof.LibHostReads
import proofs.«126142_j19722489823976_1_alg».proof.Proof.LibAffineLayer
import Idealize.ShloMosaic.Lib.Pipeline.Value

noncomputable section

namespace Cert.KernelIdeal.Body

open Idealize.ShloMosaic Idealize.ShloMosaic.ValueIdx Cert.KernelIdeal Cert.KernelIdeal.Gen

theorem k0_pay1_apply (x0 : FVec Ideal S2000x1280 .bf16) (x1 : FVec Ideal S1280x128 .bf16) (x2 : FVec Ideal S128 .f32)
    (p : Fin 2000) (q : Fin 128) :
    k0_pay1 (F := Ideal) x0 x1 x2 (ix2 p q)
      = max ((∑ k : Fin 1280, x0 (ix2 p k) * x1 (ix2 k q)) + x2 (ix1 q)) (Ideal.ofBits .f32 0x00000000#32) := by
  unfold k0_pay1
  show max ((addf (matmul dot_S2000x1280_S1280x128_S2000x128_1_0_0_1_n_n none (shapeCast S2000x1280 x0 shapeCasts_S2000x1280_S2000x1280)
        (shapeCast S1280x128 x1 shapeCasts_S1280x128_S1280x128) (constant S2000x128 .f32 0x00000000#32))
      (broadcastTo S2000x128 (shapeCast S1x128 x2 shapeCasts_S128_S1x128) broadcasts_S1x128_S2000x128)) (ix2 p q)) _ = _
  rw [shapeCast_self, shapeCast_self]
  refine congrArg (max · (Ideal.ofBits .f32 0x00000000#32)) ?_
  exact Cert.Lib.affine_apply dot_S2000x1280_S1280x128_S2000x128_1_0_0_1_n_n.wf x0 x1 x2 shapeCasts_S128_S1x128
    broadcasts_S1x128_S2000x128 p q

/-- The rectified input stage at (P, q). -/
theorem relu_lin_apply (x : FVec Ideal Cert.ReferenceIdeal.S50000x1280 .f32) (w : FVec Ideal Cert.ReferenceIdeal.S1280x128 .f32)
    (b : FVec Ideal Cert.ReferenceIdeal.S128 .f32) (P : Fin 50000) (q : Fin 128) :
    Cert.Net.relu (F := Ideal) (Cert.Net.lin (F := Ideal) x w b) (ix2 P q)
      = max ((∑ k : Fin 1280, x (ix2 P k) * w (ix2 k q)) + b (ix1 q)) (Ideal.ofBits .f32 0x00000000#32) := by
  unfold Cert.Net.relu Cert.Net.lin Cert.Net.fill
  show max ((Host.dotGeneral Cert.ReferenceIdeal.dot_S50000x1280_S1280x128_S50000x128_1_0_0_1_n_n none x w) (ix2 P q)
      + (broadcastInDim Cert.ReferenceIdeal.S50000x128 ![0, 1] _ (broadcastInDim Cert.ReferenceIdeal.S1x128 ![1] _ b)) (ix2 P q)) _ = _
  rw [Cert.Lib.dotGeneral_plain_apply Cert.ReferenceIdeal.dot_S50000x1280_S1280x128_S50000x128_1_0_0_1_n_n
    Cert.ReferenceIdeal.dot_S50000x1280_S1280x128_S50000x128_1_0_0_1_n_n.wf rfl x w P q, Cert.Lib.bcast_vec_rows_apply]
  refine congrArg (max ((∑ k : Fin 1280, x (ix2 P k) * w (ix2 k q)) + b (ix1 q))) ?_
  exact Cert.Lib.bcast_scalar_apply _ _ _

end Cert.KernelIdeal.Body

end
-- ==== Proof.Region0.lean ====
/-
  Region 0: the input kernel's output array is the rectified input stage of its three input arrays.

  The grid has 25 points; point t reads rows 2000 t .. 2000 t + 1999 of the node features, the whole weight matrix
  and the whole bias vector, and writes back the same rows of the output. What point t writes back is block t of the
  stage applied to the whole arrays, the blocks cover all 50000 rows, and the array ends at the stage.
-/
import proofs.«126142_j19722489823976_1_alg».proof.Proof.Gen.KernelIdeal.Frame
import proofs.«126142_j19722489823976_1_alg».proof.Proof.BodyLin

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the grid: the feature and output row blocks move with the point, weights and bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- At one point: feature rows T·2000 + p against the whole weights and bias, stored at (p, q), give the stage at row
    T·2000 + p. -/
theorem point (A0 : FVec Ideal Cert.ReferenceIdeal.S50000x1280 .f32) (A1 : FVec Ideal Cert.ReferenceIdeal.S1280x128 .f32)
    (A2 : FVec Ideal Cert.ReferenceIdeal.S128 .f32)
    (x0 : FVec Ideal S2000x1280 .bf16) (x1 : FVec Ideal S1280x128 .bf16) (x2 : FVec Ideal S128 .f32) (T : Nat) (hT : T < 25)
    (h0 : ∀ (p : Fin 2000) (k : Fin 1280), x0 (ix2 p k) = A0 (ix2 (⟨T * 2000 + p.val, by omega⟩ : Fin 50000) k))
    (h1 : ∀ (k : Fin 1280) (q : Fin 128), x1 (ix2 k q) = A1 (ix2 k q))
    (h2 : ∀ (q : Fin 128), x2 (ix1 q) = A2 (ix1 q))
    (j : S2000x128.Idx) (i : S50000x128.Idx) (hi0 : (i 0).val = T * 2000 + (j 0).val) (hi1 : (i 1).val = (j 1).val) :
    k0_pay1 (F := Ideal) x0 x1 x2 j = Cert.Net.relu (F := Ideal) (Cert.Net.lin (F := Ideal) A0 A1 A2) i := by
  obtain ⟨p, q, rfl⟩ : ∃ (p : Fin 2000) (q : Fin 128), j = ix2 p q := ⟨j 0, j 1, eq_ix2 j⟩
  have hi : i = ix2 (⟨T * 2000 + p.val, by omega⟩ : Fin 50000) q := by
    funext a; apply Fin.ext
    match a with
    | ⟨0, _⟩ => exact hi0
    | ⟨1, _⟩ => exact hi1
  rw [hi, Cert.KernelIdeal.Body.k0_pay1_apply, Cert.KernelIdeal.Body.relu_lin_apply, h2 q]
  refine congrArg (fun s => max (s + A2 (ix1 q)) (Ideal.ofBits .f32 0x00000000#32)) (Finset.sum_congr rfl fun k _ => ?_)
  rw [h0 p k, h1 k q]

/-- What point t writes back is block t of the stage of the arrays as the region finds them. -/
theorem flushed (c : Dev nD) (t : Fin cfg0.N) :
    (dat0 V c).flushed 3 t = ((cfg0.win 3).blk t).view.read (Elt Ideal)
      (Cert.Net.relu (F := Ideal) (Cert.Net.lin (F := Ideal) (V c (Pipeline.arrRef spec0 0)) (V c (Pipeline.arrRef spec0 1)) (V c (Pipeline.arrRef spec0 2)))) := by
  show (cfg0.win 3).cut (grid0.coords t) ((dat0 V c).after 3 t) = _
  rw [after0_3]
  unfold out0_3
  rw [View.canon_unit_zero hz]
  simp only [View.ld_unit_zero (S := S2000x1280) hz, View.ld_unit_zero (S := S1280x128) hz, View.ld_unit_zero (S := S128) hz1]
  obtain ⟨e0, e1, e2, e3, e4, e5, e6⟩ := idx_facts t
  have hT : t.val < 25 := lt_of_lt_of_eq t.isLt N_0
  funext j
  refine point (V c (Pipeline.arrRef spec0 0)) (V c (Pipeline.arrRef spec0 1)) (V c (Pipeline.arrRef spec0 2))
    (iblk0 V c 0 t) (iblk0 V c 1 t) (iblk0 V c 2 t) t.val hT
    (fun p k => ?_) (fun k q => ?_) (fun q => ?_) j (((cfg0.win 3).blk t).view.emb j) ?_ ?_
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 2000 + 1 * p.val = t.val * 2000 + p.val; omega
    | ⟨1, _⟩ => show win0_0.index t (1 : Fin 2) * 1280 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 1280 + 1 * k.val = k.val; omega
    | ⟨1, _⟩ => show win0_1.index t (1 : Fin 2) * 128 + 1 * q.val = q.val; omega
  · show V c (Pipeline.arrRef spec0 2) (((cfg0.win 2).blk t).view.emb (ix1 q)) = _
    refine congrArg (V c (Pipeline.arrRef spec0 2)) (funext fun a => Fin.ext ?_)
    match a with
    | ⟨0, _⟩ => show win0_2.index t (0 : Fin 1) * 128 + 1 * q.val = q.val; omega
  · show win0_3.index t (0 : Fin 2) * 2000 + 1 * (j 0).val = t.val * 2000 + (j 0).val; omega
  · show win0_3.index t (1 : Fin 2) * 128 + 1 * (j 1).val = (j 1).val; omega

/-- An index of the output array is in point t's block iff each coordinate is in the block's range. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v6).slice (win0_3.rect t)).set ↔ _
  rw [View.set_slice_whole, Rect.mem_set_unit]
  exact Iff.rfl

/-- Row r is in the block of point r / 2000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk]
  obtain ⟨e0, e1, e2, e3, e4, e5, e6⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e5]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e6]; omega

/-- The output array after the region. -/
theorem final (c : Dev nD) : (dat0 V c).arrAt 3 cfg0.N
    = Cert.Net.relu (F := Ideal) (Cert.Net.lin (F := Ideal) (V c (Pipeline.arrRef spec0 0)) (V c (Pipeline.arrRef spec0 1)) (V c (Pipeline.arrRef spec0 2))) :=
  (dat0 V c).arrAt_eq_of_cover 3 _ (fun t _ => flushed V c t) cover

/-- The same with the three input arrays named. -/
theorem final_of (c : Dev nD) (x : FVec Ideal Cert.ReferenceIdeal.S50000x1280 .f32) (w : FVec Ideal Cert.ReferenceIdeal.S1280x128 .f32)
    (b : FVec Ideal Cert.ReferenceIdeal.S128 .f32)
    (hx : V c (Pipeline.arrRef spec0 0) = x) (hw : V c (Pipeline.arrRef spec0 1) = w) (hb : V c (Pipeline.arrRef spec0 2) = b) :
    (dat0 V c).arrAt 3 cfg0.N = Cert.Net.relu (F := Ideal) (Cert.Net.lin (F := Ideal) x w b) := by
  subst hx hw hb; exact final V c

end Cert.KernelIdeal.Region0

end
-- ==== Proof.BodyMsg.lean ====
/-
  The message kernel's block and the message stage, read at an index.

  One block of the message kernel holds 8000 gathered source rows; the body multiplies them by the 128 x 128 weight
  matrix into a zero accumulator and scales by the fixed constant. At row p and column q of the block this is
  (sum over k of row(p, k) * weight(k, q)) times the constant. The message stage of the network does the same with
  all 1600000 rows at once, so at row P and column q it is the same sum over the P-th row, times the same constant.
-/
import proofs.«126142_j19722489823976_1_alg».proof.Proof.Gen.KernelIdeal.Skeleton
import proofs.«126142_j19722489823976_1_alg».proof.Proof.Net
import proofs.«126142_j19722489823976_1_alg».proof.Proof.LibEntryReads
import proofs.«126142_j19722489823976_1_alg».proof.Proof.LibHostReads
import Idealize.ShloMosaic.Lib.Pipeline.Value

noncomputable section

namespace Cert.KernelIdeal.Body

open Idealize.ShloMosaic Idealize.ShloMosaic.ValueIdx Cert.KernelIdeal Cert.KernelIdeal.Gen

/-- The body's stored value at (p, q) of the block. -/
theorem k1_pay1_apply (x0 : FVec Ideal S8000x128 .bf16) (x1 : FVec Ideal S128x128 .bf16) (p : Fin 8000) (q : Fin 128) :
    k1_pay1 (F := Ideal) x0 x1 (ix2 p q) = (∑ k : Fin 128, x0 (ix2 p k) * x1 (ix2 k q)) * Ideal.ofBits .f32 0x3CCC422A#32 := by
  unfold k1_pay1
  show (matmul dot_S8000x128_S128x128_S8000x128_1_0_0_1_n_n none (shapeCast S8000x128 x0 shapeCasts_S8000x128_S8000x128)
      (shapeCast S128x128 x1 shapeCasts_S128x128_S128x128) (constant S8000x128 .f32 0x00000000#32)) (ix2 p q) * _ = _
  rw [shapeCast_self, shapeCast_self]
  refine congrArg (· * Ideal.ofBits .f32 0x3CCC422A#32) ?_
  exact Cert.Lib.matmul_plain_apply dot_S8000x128_S128x128_S8000x128_1_0_0_1_n_n
    dot_S8000x128_S128x128_S8000x128_1_0_0_1_n_n.wf rfl x0 x1 p q

theorem k3_pay1_apply (x0 : FVec Ideal S8000x128 .bf16) (x1 : FVec Ideal S128x128 .bf16) (p : Fin 8000) (q : Fin 128) :
    k3_pay1 (F := Ideal) x0 x1 (ix2 p q) = (∑ k : Fin 128, x0 (ix2 p k) * x1 (ix2 k q)) * Ideal.ofBits .f32 0x3CCC422A#32 :=
  k1_pay1_apply x0 x1 p q

theorem k5_pay1_apply (x0 : FVec Ideal S8000x128 .bf16) (x1 : FVec Ideal S128x128 .bf16) (p : Fin 8000) (q : Fin 128) :
    k5_pay1 (F := Ideal) x0 x1 (ix2 p q) = (∑ k : Fin 128, x0 (ix2 p k) * x1 (ix2 k q)) * Ideal.ofBits .f32 0x3CCC422A#32 :=
  k1_pay1_apply x0 x1 p q

/-- The message stage at (P, q). -/
theorem msg_apply (g : FVec Ideal Cert.ReferenceIdeal.S1600000x128 .f32) (w : FVec Ideal Cert.ReferenceIdeal.S128x128 .f32)
    (P : Fin 1600000) (q : Fin 128) :
    Cert.Net.msg (F := Ideal) g w (ix2 P q) = (∑ k : Fin 128, g (ix2 P k) * w (ix2 k q)) * Ideal.ofBits .f32 0x3CCC422A#32 := by
  unfold Cert.Net.msg Cert.Net.fill
  show (Host.dotGeneral Cert.ReferenceIdeal.dot_S1600000x128_S128x128_S1600000x128_1_0_0_1_n_n none g w) (ix2 P q) * _ = _
  rw [Cert.Lib.dotGeneral_plain_apply Cert.ReferenceIdeal.dot_S1600000x128_S128x128_S1600000x128_1_0_0_1_n_n
    Cert.ReferenceIdeal.dot_S1600000x128_S128x128_S1600000x128_1_0_0_1_n_n.wf rfl g w P q]
  refine congrArg ((∑ k : Fin 128, g (ix2 P k) * w (ix2 k q)) * ·) ?_
  exact Cert.Lib.bcast_scalar_apply _ _ _

end Cert.KernelIdeal.Body

end
-- ==== Proof.Region1.lean ====
/-
  Region 1: the message kernel's output array is the message stage of its two input arrays.

  The grid has 200 points; point t reads rows 8000 t .. 8000 t + 7999 of the gathered source rows and the whole
  weight matrix, and writes back the same rows of the output. So what point t writes back is block t of the message
  stage applied to the whole input arrays, the blocks cover all 1600000 rows, and the array ends at the stage.
-/
import proofs.«126142_j19722489823976_1_alg».proof.Proof.Gen.KernelIdeal.Frame
import proofs.«126142_j19722489823976_1_alg».proof.Proof.BodyMsg

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks move with the point, the weight matrix stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- At one point: a block of rows T·8000 + p of the whole array, against the whole weights, stored at (p, q), is the
    stage at row T·8000 + p. -/
theorem point (A0 : FVec Ideal Cert.ReferenceIdeal.S1600000x128 .f32) (A1 : FVec Ideal Cert.ReferenceIdeal.S128x128 .f32)
    (x0 : FVec Ideal S8000x128 .bf16) (x1 : FVec Ideal S128x128 .bf16) (T : Nat) (hT : T < 200)
    (h0 : ∀ (p : Fin 8000) (k : Fin 128), x0 (ix2 p k) = A0 (ix2 (⟨T * 8000 + p.val, by omega⟩ : Fin 1600000) k))
    (h1 : ∀ (k q : Fin 128), x1 (ix2 k q) = A1 (ix2 k q))
    (j : S8000x128.Idx) (i : S1600000x128.Idx) (hi0 : (i 0).val = T * 8000 + (j 0).val) (hi1 : (i 1).val = (j 1).val) :
    k1_pay1 (F := Ideal) x0 x1 j = Cert.Net.msg (F := Ideal) A0 A1 i := by
  obtain ⟨p, q, rfl⟩ : ∃ (p : Fin 8000) (q : Fin 128), j = ix2 p q := ⟨j 0, j 1, eq_ix2 j⟩
  have hi : i = ix2 (⟨T * 8000 + p.val, by omega⟩ : Fin 1600000) q := by
    funext a; apply Fin.ext
    match a with
    | ⟨0, _⟩ => exact hi0
    | ⟨1, _⟩ => exact hi1
  rw [hi, Cert.KernelIdeal.Body.k1_pay1_apply, Cert.KernelIdeal.Body.msg_apply]
  refine congrArg (· * Ideal.ofBits .f32 0x3CCC422A#32) (Finset.sum_congr rfl fun k _ => ?_)
  rw [h0 p k, h1 k q]

/-- What point t writes back is block t of the stage of the arrays as the region finds them. -/
theorem flushed (c : Dev nD) (t : Fin cfg1.N) :
    (dat1 V c).flushed 2 t = ((cfg1.win 2).blk t).view.read (Elt Ideal)
      (Cert.Net.msg (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S8000x128) hz, View.ld_unit_zero (S := S128x128) hz]
  obtain ⟨e0, e1, e2, e3, e4, e5⟩ := idx_facts t
  have hT : t.val < 200 := lt_of_lt_of_eq t.isLt N_1
  funext j
  refine point (V c (Pipeline.arrRef spec1 0)) (V c (Pipeline.arrRef spec1 1)) (iblk1 V c 0 t) (iblk1 V c 1 t) t.val hT
    (fun p k => ?_) (fun k q => ?_) j (((cfg1.win 2).blk t).view.emb j) ?_ ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 8000 + 1 * p.val = t.val * 8000 + p.val; omega
    | ⟨1, _⟩ => show win1_0.index t (1 : Fin 2) * 128 + 1 * k.val = k.val; omega
  · show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 8000 + 1 * (j 0).val = t.val * 8000 + (j 0).val; omega
  · show win1_2.index t (1 : Fin 2) * 128 + 1 * (j 1).val = (j 1).val; omega

/-- An index of the output array is in point t's block iff each coordinate is in the block's range. -/
theorem mem_blk (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v15).slice (win1_2.rect t)).set ↔ _
  rw [View.set_slice_whole, Rect.mem_set_unit]
  exact Iff.rfl

/-- Row r is in the block of point r / 8000. -/
theorem cover (i : S1600000x128.Idx) : ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 200 := N_1
  refine ⟨⟨(i 0).val / 8000, by rw [hN]; omega⟩, flush1_2 _, ?_⟩
  rw [mem_blk]
  obtain ⟨e0, e1, e2, e3, e4, e5⟩ := idx_facts ⟨(i 0).val / 8000, by rw [hN]; omega⟩
  intro a
  match a with
  | ⟨0, _⟩ => show win1_2.index _ (0 : Fin 2) * 8000 ≤ (i 0).val ∧ (i 0).val < win1_2.index _ (0 : Fin 2) * 8000 + 8000; rw [e4]; show (i 0).val / 8000 * 8000 ≤ (i 0).val ∧ (i 0).val < (i 0).val / 8000 * 8000 + 8000; omega
  | ⟨1, _⟩ => show win1_2.index _ (1 : Fin 2) * 128 ≤ (i 1).val ∧ (i 1).val < win1_2.index _ (1 : Fin 2) * 128 + 128; rw [e5]; omega

/-- The output array after the region. -/
theorem final (c : Dev nD) : (dat1 V c).arrAt 2 cfg1.N
    = Cert.Net.msg (F := Ideal) (V c (Pipeline.arrRef spec1 0)) (V c (Pipeline.arrRef spec1 1)) :=
  (dat1 V c).arrAt_eq_of_cover 2 _ (fun t _ => flushed V c t) cover

/-- The same with the two input arrays named. -/
theorem final_of (c : Dev nD) (g : FVec Ideal Cert.ReferenceIdeal.S1600000x128 .f32) (w : FVec Ideal Cert.ReferenceIdeal.S128x128 .f32)
    (hg : V c (Pipeline.arrRef spec1 0) = g) (hw : V c (Pipeline.arrRef spec1 1) = w) :
    (dat1 V c).arrAt 2 cfg1.N = Cert.Net.msg (F := Ideal) g w := by
  subst hg hw; exact final V c

end Cert.KernelIdeal.Region1

end
-- ==== Proof.BodyAvg.lean ====
/-
  The averaging kernels' block and the averaging stage, read at an index.

  One block holds 2000 nodes' message sums and their edge counts as a column; the body divides each row by the larger
  of its count and one, and two of the three kernels then take the larger of that and zero. At row p and column q:
  sum(p, q) / max(count(p), 1), rectified or not. The stage of the network does the same on all 50000 nodes at once
  from the counts as a vector, so at node P it reads the same expression with the P-th sum row and count.
-/
import proofs.«126142_j19722489823976_1_alg».proof.Proof.Gen.KernelIdeal.Skeleton
import proofs.«126142_j19722489823976_1_alg».proof.Proof.Net
import proofs.«126142_j19722489823976_1_alg».proof.Proof.LibKeepdims
import proofs.«126142_j19722489823976_1_alg».proof.Proof.LibHostReads
import Idealize.ShloMosaic.Lib.Pipeline.Value

noncomputable section

namespace Cert.KernelIdeal.Body

open Idealize.ShloMosaic Idealize.ShloMosaic.ValueIdx Cert.KernelIdeal Cert.KernelIdeal.Gen

/-- A node's averaged entry: its sum over the larger of its count and one. -/
def avg (s n : EReal) : EReal := Ideal.div s (max n (Ideal.ofBits .f32 0x3F800000#32))

/-- The same, rectified. -/
def avgRelu (s n : EReal) : EReal := max (avg s n) (Ideal.ofBits .f32 0x00000000#32)

theorem k2_pay1_apply (x0 : FVec Ideal S2000x128 .f32) (x1 : FVec Ideal S2000x1 .f32) (p : Fin 2000) (q : Fin 128) :
    k2_pay1 (F := Ideal) x0 x1 (ix2 p q) = avgRelu (x0 (ix2 p q)) (x1 (ix2 p (0 : Fin 1))) := by
  unfold k2_pay1 avgRelu avg
  show max (Ideal.div ((shapeCast S2000x128 x0 shapeCasts_S2000x128_S2000x128) (ix2 p q))
      ((broadcastTo S2000x128 (maximumf (shapeCast S2000x1 x1 shapeCasts_S2000x1_S2000x1)
        (broadcast S2000x1 (Scalar.ofBits (F := Ideal) .f32 0x3F800000#32))) broadcasts_S2000x1_S2000x128) (ix2 p q))) _ = _
  rw [shapeCast_self, Cert.Lib.broadcastTo_a1_ab_apply, shapeCast_self]
  rfl

theorem k4_pay1_apply (x0 : FVec Ideal S2000x128 .f32) (x1 : FVec Ideal S2000x1 .f32) (p : Fin 2000) (q : Fin 128) :
    k4_pay1 (F := Ideal) x0 x1 (ix2 p q) = avgRelu (x0 (ix2 p q)) (x1 (ix2 p (0 : Fin 1))) :=
  k2_pay1_apply x0 x1 p q

theorem k6_pay1_apply (x0 : FVec Ideal S2000x128 .f32) (x1 : FVec Ideal S2000x1 .f32) (p : Fin 2000) (q : Fin 128) :
    k6_pay1 (F := Ideal) x0 x1 (ix2 p q) = avg (x0 (ix2 p q)) (x1 (ix2 p (0 : Fin 1))) := by
  unfold k6_pay1 avg
  show Ideal.div ((shapeCast S2000x128 x0 shapeCasts_S2000x128_S2000x128) (ix2 p q))
      ((broadcastTo S2000x128 (maximumf (shapeCast S2000x1 x1 shapeCasts_S2000x1_S2000x1)
        (broadcast S2000x1 (Scalar.ofBits (F := Ideal) .f32 0x3F800000#32))) broadcasts_S2000x1_S2000x128) (ix2 p q)) = _
  rw [shapeCast_self, Cert.Lib.broadcastTo_a1_ab_apply, shapeCast_self]
  rfl

/-- The averaging stage at (P, q). -/
theorem mean_apply (s : FVec Ideal Cert.ReferenceIdeal.S50000x128 .f32) (n : FVec Ideal Cert.ReferenceIdeal.S50000 .f32)
    (P : Fin 50000) (q : Fin 128) : Cert.Net.mean (F := Ideal) s n (ix2 P q) = avg (s (ix2 P q)) (n (ix1 P)) := by
  unfold Cert.Net.mean Cert.Net.fill avg
  show Ideal.div (s (ix2 P q)) _ = _
  refine congrArg (Ideal.div (s (ix2 P q))) ?_
  rw [Cert.Lib.bcast_col_rows_apply, Cert.Lib.bcast_col_apply]
  show max (n (ix1 P)) _ = _
  refine congrArg (max (n (ix1 P))) ?_
  exact Cert.Lib.bcast_scalar_apply _ _ _

/-- The rectified averaging stage at (P, q). -/
theorem relu_mean_apply (s : FVec Ideal Cert.ReferenceIdeal.S50000x128 .f32) (n : FVec Ideal Cert.ReferenceIdeal.S50000 .f32)
    (P : Fin 50000) (q : Fin 128) : Cert.Net.relu (F := Ideal) (Cert.Net.mean (F := Ideal) s n) (ix2 P q) = avgRelu (s (ix2 P q)) (n (ix1 P)) := by
  unfold Cert.Net.relu avgRelu
  show max (Cert.Net.mean (F := Ideal) s n (ix2 P q)) _ = _
  rw [mean_apply]
  refine congrArg (max (avg (s (ix2 P q)) (n (ix1 P)))) ?_
  unfold Cert.Net.fill
  exact Cert.Lib.bcast_scalar_apply _ _ _

end Cert.KernelIdeal.Body

end
-- ==== Proof.Region2.lean ====
/-
  Region 2: the averaging kernel's output array is the rectified averaging stage of its input arrays.

  The grid has 25 points; point t reads rows 2000 t .. 2000 t + 1999 of the message sums and of the edge counts (a
  column), and writes back the same rows of the output. The counts reach the region as the count vector recast as a
  column, so row P of the column is the P-th count. What point t writes back is block t of the stage applied to the
  whole arrays, the blocks cover all 50000 rows, and the array ends at the stage.
-/
import proofs.«126142_j19722489823976_1_alg».proof.Proof.Gen.KernelIdeal.Frame
import proofs.«126142_j19722489823976_1_alg».proof.Proof.BodyAvg

set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three row blocks move with the point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- At one point: rows T·2000 + p of the sums and of the counts, stored at (p, q), give the stage at row T·2000 + p. -/
theorem point (A0 : FVec Ideal Cert.ReferenceIdeal.S50000x128 .f32) (n : FVec Ideal Cert.ReferenceIdeal.S50000 .f32)
    (x0 : FVec Ideal S2000x128 .f32) (x1 : FVec Ideal S2000x1 .f32) (T : Nat) (hT : T < 25)
    (h0 : ∀ (p : Fin 2000) (q : Fin 128), x0 (ix2 p q) = A0 (ix2 (⟨T * 2000 + p.val, by omega⟩ : Fin 50000) q))
    (h1 : ∀ (p : Fin 2000), x1 (ix2 p (0 : Fin 1)) = n (ix1 (⟨T * 2000 + p.val, by omega⟩ : Fin 50000)))
    (j : S2000x128.Idx) (i : S50000x128.Idx) (hi0 : (i 0).val = T * 2000 + (j 0).val) (hi1 : (i 1).val = (j 1).val) :
    k2_pay1 (F := Ideal) x0 x1 j = Cert.Net.relu (F := Ideal) (Cert.Net.mean (F := Ideal) A0 n) i := by
  obtain ⟨p, q, rfl⟩ : ∃ (p : Fin 2000) (q : Fin 128), j = ix2 p q := ⟨j 0, j 1, eq_ix2 j⟩
  have hi : i = ix2 (⟨T * 2000 + p.val, by omega⟩ : Fin 50000) q := by
    funext a; apply Fin.ext
    match a with
    | ⟨0, _⟩ => exact hi0
    | ⟨1, _⟩ => exact hi1
  rw [hi, Cert.KernelIdeal.Body.k2_pay1_apply, Cert.KernelIdeal.Body.relu_mean_apply, h0 p q, h1 p]

/-- What point t writes back is block t of the stage of the arrays as the region finds them. -/
theorem flushed (c : Dev nD) (n : FVec Ideal S50000 .f32) (hc : S50000.ShapeCasts S50000x1)
    (hn : V c (Pipeline.arrRef spec2 1) = shapeCast S50000x1 n hc) (t : Fin cfg2.N) :
    (dat2 V c).flushed 2 t = ((cfg2.win 2).blk t).view.read (Elt Ideal)
      (Cert.Net.relu (F := Ideal) (Cert.Net.mean (F := Ideal) (V c (Pipeline.arrRef spec2 0)) n)) := by
  show (cfg2.win 2).cut (grid2.coords t) ((dat2 V c).after 2 t) = _
  rw [after2_2]
  unfold out2_2
  rw [View.canon_unit_zero hz]
  simp only [View.ld_unit_zero (S := S2000x128) hz, View.ld_unit_zero (S := S2000x1) hz]
  obtain ⟨e0, e1, e2, e3, e4, e5⟩ := idx_facts t
  have hT : t.val < 25 := lt_of_lt_of_eq t.isLt N_2
  funext j
  refine point (V c (Pipeline.arrRef spec2 0)) n (iblk2 V c 0 t) (iblk2 V c 1 t) t.val hT
    (fun p q => ?_) (fun p => ?_) j (((cfg2.win 2).blk t).view.emb j) ?_ ?_
  · show V c (Pipeline.arrRef spec2 0) (((cfg2.win 0).blk t).view.emb (ix2 p q)) = _
    refine congrArg (V c (Pipeline.arrRef spec2 0)) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * q.val = q.val; omega
  · show V c (Pipeline.arrRef spec2 1) (((cfg2.win 1).blk t).view.emb (ix2 p (0 : Fin 1))) = _
    rw [hn]
    refine (congrArg (shapeCast S50000x1 n hc)
      (?_ : _ = ix2 (⟨t.val * 2000 + p.val, by omega⟩ : Fin 50000) (0 : Fin 1))).trans (Cert.Lib.shapeCast_a_a1_apply n hc _ _)
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  · show win2_2.index t (0 : Fin 2) * 2000 + 1 * (j 0).val = t.val * 2000 + (j 0).val; omega
  · show win2_2.index t (1 : Fin 2) * 128 + 1 * (j 1).val = (j 1).val; omega

/-- An index of the output array is in point t's block iff each coordinate is in the block's range. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v24).slice (win2_2.rect t)).set ↔ _
  rw [View.set_slice_whole, Rect.mem_set_unit]
  exact Iff.rfl

/-- Row r is in the block of point r / 2000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  rw [mem_blk]
  obtain ⟨e0, e1, e2, e3, e4, e5⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e5]; omega

/-- The output array after the region. -/
theorem final (c : Dev nD) (n : FVec Ideal S50000 .f32) (hc : S50000.ShapeCasts S50000x1)
    (hn : V c (Pipeline.arrRef spec2 1) = shapeCast S50000x1 n hc) : (dat2 V c).arrAt 2 cfg2.N
    = Cert.Net.relu (F := Ideal) (Cert.Net.mean (F := Ideal) (V c (Pipeline.arrRef spec2 0)) n) :=
  (dat2 V c).arrAt_eq_of_cover 2 _ (fun t _ => flushed V c n hc hn t) cover

/-- The same with the sums named. -/
theorem final_of (c : Dev nD) (s : FVec Ideal Cert.ReferenceIdeal.S50000x128 .f32) (n : FVec Ideal S50000 .f32) (hc : S50000.ShapeCasts S50000x1)
    (hs : V c (Pipeline.arrRef spec2 0) = s) (hn : V c (Pipeline.arrRef spec2 1) = shapeCast S50000x1 n hc) :
    (dat2 V c).arrAt 2 cfg2.N = Cert.Net.relu (F := Ideal) (Cert.Net.mean (F := Ideal) s n) := by
  subst hs; exact final V c n hc hn

end Cert.KernelIdeal.Region2

end
-- ==== Proof.Region3.lean ====
/-
  Region 3: the message kernel's output array is the message stage of its two input arrays.

  The grid has 200 points; point t reads rows 8000 t .. 8000 t + 7999 of the gathered source rows and the whole
  weight matrix, and writes back the same rows of the output. So what point t writes back is block t of the message
  stage applied to the whole input arrays, the blocks cover all 1600000 rows, and the array ends at the stage.
-/
import proofs.«126142_j19722489823976_1_alg».proof.Proof.Gen.KernelIdeal.Frame
import proofs.«126142_j19722489823976_1_alg».proof.Proof.BodyMsg

set_option maxRecDepth 16384

noncomputable section

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks move with the point, the weight matrix stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- At one point: a block of rows T·8000 + p of the whole array, against the whole weights, stored at (p, q), is the
    stage at row T·8000 + p. -/
theorem point (A0 : FVec Ideal Cert.ReferenceIdeal.S1600000x128 .f32) (A1 : FVec Ideal Cert.ReferenceIdeal.S128x128 .f32)
    (x0 : FVec Ideal S8000x128 .bf16) (x1 : FVec Ideal S128x128 .bf16) (T : Nat) (hT : T < 200)
    (h0 : ∀ (p : Fin 8000) (k : Fin 128), x0 (ix2 p k) = A0 (ix2 (⟨T * 8000 + p.val, by omega⟩ : Fin 1600000) k))
    (h1 : ∀ (k q : Fin 128), x1 (ix2 k q) = A1 (ix2 k q))
    (j : S8000x128.Idx) (i : S1600000x128.Idx) (hi0 : (i 0).val = T * 8000 + (j 0).val) (hi1 : (i 1).val = (j 1).val) :
    k3_pay1 (F := Ideal) x0 x1 j = Cert.Net.msg (F := Ideal) A0 A1 i := by
  obtain ⟨p, q, rfl⟩ : ∃ (p : Fin 8000) (q : Fin 128), j = ix2 p q := ⟨j 0, j 1, eq_ix2 j⟩
  have hi : i = ix2 (⟨T * 8000 + p.val, by omega⟩ : Fin 1600000) q := by
    funext a; apply Fin.ext
    match a with
    | ⟨0, _⟩ => exact hi0
    | ⟨1, _⟩ => exact hi1
  rw [hi, Cert.KernelIdeal.Body.k3_pay1_apply, Cert.KernelIdeal.Body.msg_apply]
  refine congrArg (· * Ideal.ofBits .f32 0x3CCC422A#32) (Finset.sum_congr rfl fun k _ => ?_)
  rw [h0 p k, h1 k q]

/-- What point t writes back is block t of the stage of the arrays as the region finds them. -/
theorem flushed (c : Dev nD) (t : Fin cfg3.N) :
    (dat3 V c).flushed 2 t = ((cfg3.win 2).blk t).view.read (Elt Ideal)
      (Cert.Net.msg (F := Ideal) (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S8000x128) hz, View.ld_unit_zero (S := S128x128) hz]
  obtain ⟨e0, e1, e2, e3, e4, e5⟩ := idx_facts t
  have hT : t.val < 200 := lt_of_lt_of_eq t.isLt N_3
  funext j
  refine point (V c (Pipeline.arrRef spec3 0)) (V c (Pipeline.arrRef spec3 1)) (iblk3 V c 0 t) (iblk3 V c 1 t) t.val hT
    (fun p k => ?_) (fun k q => ?_) j (((cfg3.win 2).blk t).view.emb j) ?_ ?_
  · show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 8000 + 1 * p.val = t.val * 8000 + p.val; omega
    | ⟨1, _⟩ => show win3_0.index t (1 : Fin 2) * 128 + 1 * k.val = k.val; omega
  · show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show win3_2.index t (0 : Fin 2) * 8000 + 1 * (j 0).val = t.val * 8000 + (j 0).val; omega
  · show win3_2.index t (1 : Fin 2) * 128 + 1 * (j 1).val = (j 1).val; omega

/-- An index of the output array is in point t's block iff each coordinate is in the block's range. -/
theorem mem_blk (t : Fin cfg3.N) (i : S1600000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v33).slice (win3_2.rect t)).set ↔ _
  rw [View.set_slice_whole, Rect.mem_set_unit]
  exact Iff.rfl

/-- Row r is in the block of point r / 8000. -/
theorem cover (i : S1600000x128.Idx) : ∃ t : Fin cfg3.N, (cfg3.win 2).flush t = true ∧ i ∈ ((cfg3.win 2).blk t).view.set := by
  have hi0 : (i 0).val < 1600000 := (i 0).isLt
  have hi1 : (i 1).val < 128 := (i 1).isLt
  have hN : cfg3.N = 200 := N_3
  refine ⟨⟨(i 0).val / 8000, by rw [hN]; omega⟩, flush3_2 _, ?_⟩
  rw [mem_blk]
  obtain ⟨e0, e1, e2, e3, e4, e5⟩ := idx_facts ⟨(i 0).val / 8000, by rw [hN]; omega⟩
  intro a
  match a with
  | ⟨0, _⟩ => show win3_2.index _ (0 : Fin 2) * 8000 ≤ (i 0).val ∧ (i 0).val < win3_2.index _ (0 : Fin 2) * 8000 + 8000; rw [e4]; show (i 0).val / 8000 * 8000 ≤ (i 0).val ∧ (i 0).val < (i 0).val / 8000 * 8000 + 8000; omega
  | ⟨1, _⟩ => show win3_2.index _ (1 : Fin 2) * 128 ≤ (i 1).val ∧ (i 1).val < win3_2.index _ (1 : Fin 2) * 128 + 128; rw [e5]; omega

/-- The output array after the region. -/
theorem final (c : Dev nD) : (dat3 V c).arrAt 2 cfg3.N
    = Cert.Net.msg (F := Ideal) (V c (Pipeline.arrRef spec3 0)) (V c (Pipeline.arrRef spec3 1)) :=
  (dat3 V c).arrAt_eq_of_cover 2 _ (fun t _ => flushed V c t) cover

/-- The same with the two input arrays named. -/
theorem final_of (c : Dev nD) (g : FVec Ideal Cert.ReferenceIdeal.S1600000x128 .f32) (w : FVec Ideal Cert.ReferenceIdeal.S128x128 .f32)
    (hg : V c (Pipeline.arrRef spec3 0) = g) (hw : V c (Pipeline.arrRef spec3 1) = w) :
    (dat3 V c).arrAt 2 cfg3.N = Cert.Net.msg (F := Ideal) g w := by
  subst hg hw; exact final V c

end Cert.KernelIdeal.Region3

end
-- ==== Proof.Region4.lean ====
/-
  Region 4: the averaging kernel's output array is the rectified averaging stage of its input arrays.

  The grid has 25 points; point t reads rows 2000 t .. 2000 t + 1999 of the message sums and of the edge counts (a
  column), and writes back the same rows of the output. The counts reach the region as the count vector recast as a
  column, so row P of the column is the P-th count. What point t writes back is block t of the stage applied to the
  whole arrays, the blocks cover all 50000 rows, and the array ends at the stage.
-/
import proofs.«126142_j19722489823976_1_alg».proof.Proof.Gen.KernelIdeal.Frame
import proofs.«126142_j19722489823976_1_alg».proof.Proof.BodyAvg

set_option maxRecDepth 16384

noncomputable section

namespace Cert.KernelIdeal.Region4

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three row blocks move with the point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- At one point: rows T·2000 + p of the sums and of the counts, stored at (p, q), give the stage at row T·2000 + p. -/
theorem point (A0 : FVec Ideal Cert.ReferenceIdeal.S50000x128 .f32) (n : FVec Ideal Cert.ReferenceIdeal.S50000 .f32)
    (x0 : FVec Ideal S2000x128 .f32) (x1 : FVec Ideal S2000x1 .f32) (T : Nat) (hT : T < 25)
    (h0 : ∀ (p : Fin 2000) (q : Fin 128), x0 (ix2 p q) = A0 (ix2 (⟨T * 2000 + p.val, by omega⟩ : Fin 50000) q))
    (h1 : ∀ (p : Fin 2000), x1 (ix2 p (0 : Fin 1)) = n (ix1 (⟨T * 2000 + p.val, by omega⟩ : Fin 50000)))
    (j : S2000x128.Idx) (i : S50000x128.Idx) (hi0 : (i 0).val = T * 2000 + (j 0).val) (hi1 : (i 1).val = (j 1).val) :
    k4_pay1 (F := Ideal) x0 x1 j = Cert.Net.relu (F := Ideal) (Cert.Net.mean (F := Ideal) A0 n) i := by
  obtain ⟨p, q, rfl⟩ : ∃ (p : Fin 2000) (q : Fin 128), j = ix2 p q := ⟨j 0, j 1, eq_ix2 j⟩
  have hi : i = ix2 (⟨T * 2000 + p.val, by omega⟩ : Fin 50000) q := by
    funext a; apply Fin.ext
    match a with
    | ⟨0, _⟩ => exact hi0
    | ⟨1, _⟩ => exact hi1
  rw [hi, Cert.KernelIdeal.Body.k4_pay1_apply, Cert.KernelIdeal.Body.relu_mean_apply, h0 p q, h1 p]

/-- What point t writes back is block t of the stage of the arrays as the region finds them. -/
theorem flushed (c : Dev nD) (n : FVec Ideal S50000 .f32) (hc : S50000.ShapeCasts S50000x1)
    (hn : V c (Pipeline.arrRef spec4 1) = shapeCast S50000x1 n hc) (t : Fin cfg4.N) :
    (dat4 V c).flushed 2 t = ((cfg4.win 2).blk t).view.read (Elt Ideal)
      (Cert.Net.relu (F := Ideal) (Cert.Net.mean (F := Ideal) (V c (Pipeline.arrRef spec4 0)) n)) := by
  show (cfg4.win 2).cut (grid4.coords t) ((dat4 V c).after 2 t) = _
  rw [after4_2]
  unfold out4_2
  rw [View.canon_unit_zero hz]
  simp only [View.ld_unit_zero (S := S2000x128) hz, View.ld_unit_zero (S := S2000x1) hz]
  obtain ⟨e0, e1, e2, e3, e4, e5⟩ := idx_facts t
  have hT : t.val < 25 := lt_of_lt_of_eq t.isLt N_4
  funext j
  refine point (V c (Pipeline.arrRef spec4 0)) n (iblk4 V c 0 t) (iblk4 V c 1 t) t.val hT
    (fun p q => ?_) (fun p => ?_) j (((cfg4.win 2).blk t).view.emb j) ?_ ?_
  · show V c (Pipeline.arrRef spec4 0) (((cfg4.win 0).blk t).view.emb (ix2 p q)) = _
    refine congrArg (V c (Pipeline.arrRef spec4 0)) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * q.val = q.val; omega
  · show V c (Pipeline.arrRef spec4 1) (((cfg4.win 1).blk t).view.emb (ix2 p (0 : Fin 1))) = _
    rw [hn]
    refine (congrArg (shapeCast S50000x1 n hc)
      (?_ : _ = ix2 (⟨t.val * 2000 + p.val, by omega⟩ : Fin 50000) (0 : Fin 1))).trans (Cert.Lib.shapeCast_a_a1_apply n hc _ _)
    funext a; apply Fin.ext
    match a with
    | ⟨0, _⟩ => show win4_1.index t (0 : Fin 2) * 2000 + 1 * p.val = t.val * 2000 + p.val; omega
    | ⟨1, _⟩ => show win4_1.index t (1 : Fin 2) * 1 + 1 * 0 = 0; omega
  · show win4_2.index t (0 : Fin 2) * 2000 + 1 * (j 0).val = t.val * 2000 + (j 0).val; omega
  · show win4_2.index t (1 : Fin 2) * 128 + 1 * (j 1).val = (j 1).val; omega

/-- An index of the output array is in point t's block iff each coordinate is in the block's range. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v42).slice (win4_2.rect t)).set ↔ _
  rw [View.set_slice_whole, Rect.mem_set_unit]
  exact Iff.rfl

/-- Row r is in the block of point r / 2000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_2 _, ?_⟩
  rw [mem_blk]
  obtain ⟨e0, e1, e2, e3, e4, e5⟩ := idx_facts ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 128 ≤ (i 1).val ∧ (i 1).val < win4_2.index _ (1 : Fin 2) * 128 + 128; rw [e5]; omega

/-- The output array after the region. -/
theorem final (c : Dev nD) (n : FVec Ideal S50000 .f32) (hc : S50000.ShapeCasts S50000x1)
    (hn : V c (Pipeline.arrRef spec4 1) = shapeCast S50000x1 n hc) : (dat4 V c).arrAt 2 cfg4.N
    = Cert.Net.relu (F := Ideal) (Cert.Net.mean (F := Ideal) (V c (Pipeline.arrRef spec4 0)) n) :=
  (dat4 V c).arrAt_eq_of_cover 2 _ (fun t _ => flushed V c n hc hn t) cover

/-- The same with the sums named. -/
theorem final_of (c : Dev nD) (s : FVec Ideal Cert.ReferenceIdeal.S50000x128 .f32) (n : FVec Ideal S50000 .f32) (hc : S50000.ShapeCasts S50000x1)
    (hs : V c (Pipeline.arrRef spec4 0) = s) (hn : V c (Pipeline.arrRef spec4 1) = shapeCast S50000x1 n hc) :
    (dat4 V c).arrAt 2 cfg4.N = Cert.Net.relu (F := Ideal) (Cert.Net.mean (F := Ideal) s n) := by
  subst hs; exact final V c n hc hn

end Cert.KernelIdeal.Region4

end
-- ==== Proof.Region5.lean ====
/-
  Region 5: the message kernel's output array is the message stage of its two input arrays.

  The grid has 200 points; point t reads rows 8000 t .. 8000 t + 7999 of the gathered source rows and the whole
  weight matrix, and writes back the same rows of the output. So what point t writes back is block t of the message
  stage applied to the whole input arrays, the blocks cover all 1600000 rows, and the array ends at the stage.
-/
import proofs.«126142_j19722489823976_1_alg».proof.Proof.Gen.KernelIdeal.Frame
import proofs.«126142_j19722489823976_1_alg».proof.Proof.BodyMsg

set_option maxRecDepth 16384

noncomputable section

namespace Cert.KernelIdeal.Region5

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks move with the point, the weight matrix stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- At one point: a block of rows T·8000 + p of the whole array, against the whole weights, stored at (p, q), is the
    stage at row T·8000 + p. -/
theorem point (A0 : FVec Ideal Cert.ReferenceIdeal.S1600000x128 .f32) (A1 : FVec Ideal Cert.ReferenceIdeal.S128x128 .f32)
    (x0 : FVec Ideal S8000x128 .bf16) (x1 : FVec Ideal S128x128 .bf16) (T : Nat) (hT : T < 200)
    (h0 : ∀ (p : Fin 8000) (k : Fin 128), x0 (ix2 p k) = A0 (ix2 (⟨T * 8000 + p.val, by omega⟩ : Fin 1600000) k))
    (h1 : ∀ (k q : Fin 128), x1 (ix2 k q) = A1 (ix2 k q))
    (j : S8000x128.Idx) (i : S1600000x128.Idx) (hi0 : (i 0).val = T * 8000 + (j 0).val) (hi1 : (i 1).val = (j 1).val) :
    k5_pay1 (F := Ideal) x0 x1 j = Cert.Net.msg (F := Ideal) A0 A1 i := by
  obtain ⟨p, q, rfl⟩ : ∃ (p : Fin 8000) (q : Fin 128), j = ix2 p q := ⟨j 0, j 1, eq_ix2 j⟩
  have hi : i = ix2 (⟨T * 8000 + p.val, by omega⟩ : Fin 1600000) q := by
    funext a; apply Fin.ext
    match a with
    | ⟨0, _⟩ => exact hi0
    | ⟨1, _⟩ => exact hi1
  rw [hi, Cert.KernelIdeal.Body.k5_pay1_apply, Cert.KernelIdeal.Body.msg_apply]
  refine congrArg (· * Ideal.ofBits .f32 0x3CCC422A#32) (Finset.sum_congr rfl fun k _ => ?_)
  rw [h0 p k, h1 k q]

/-- What point t writes back is block t of the stage of the arrays as the region finds them. -/
theorem flushed (c : Dev nD) (t : Fin cfg5.N) :
    (dat5 V c).flushed 2 t = ((cfg5.win 2).blk t).view.read (Elt Ideal)
      (Cert.Net.msg (F := Ideal) (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S8000x128) hz, View.ld_unit_zero (S := S128x128) hz]
  obtain ⟨e0, e1, e2, e3, e4, e5⟩ := idx_facts t
  have hT : t.val < 200 := lt_of_lt_of_eq t.isLt N_5
  funext j
  refine point (V c (Pipeline.arrRef spec5 0)) (V c (Pipeline.arrRef spec5 1)) (iblk5 V c 0 t) (iblk5 V c 1 t) t.val hT
    (fun p k => ?_) (fun k q => ?_) j (((cfg5.win 2).blk t).view.emb j) ?_ ?_
  · show V c (Pipeline.arrRef spec5 0) (((cfg5.win 0).blk t).view.emb (ix2 p k)) = _
    refine congrArg (V c (Pipeline.arrRef spec5 0)) (funext fun a => Fin.ext ?_)
    match a with
    | ⟨0, _⟩ => show win5_0.index t (0 : Fin 2) * 8000 + 1 * p.val = t.val * 8000 + p.val; omega
    | ⟨1, _⟩ => show win5_0.index t (1 : Fin 2) * 128 + 1 * k.val = k.val; omega
  · show V c (Pipeline.arrRef spec5 1) (((cfg5.win 1).blk t).view.emb (ix2 k q)) = _
    refine congrArg (V c (Pipeline.arrRef spec5 1)) (funext fun a => Fin.ext ?_)
    match a with
    | ⟨0, _⟩ => show win5_1.index t (0 : Fin 2) * 128 + 1 * k.val = k.val; omega
    | ⟨1, _⟩ => show win5_1.index t (1 : Fin 2) * 128 + 1 * q.val = q.val; omega
  · show win5_2.index t (0 : Fin 2) * 8000 + 1 * (j 0).val = t.val * 8000 + (j 0).val; omega
  · show win5_2.index t (1 : Fin 2) * 128 + 1 * (j 1).val = (j 1).val; omega

/-- An index of the output array is in point t's block iff each coordinate is in the block's range. -/
theorem mem_blk (t : Fin cfg5.N) (i : S1600000x128.Idx) :
    i ∈ ((cfg5.win 2).blk t).view.set ↔ ∀ a : Fin 2, win5_2.index t a * S8000x128.size a ≤ (i a).val ∧ (i a).val < win5_2.index t a * S8000x128.size a + S8000x128.size a := by
  show i ∈ ((View.whole main_v51).slice (win5_2.rect t)).set ↔ _
  rw [View.set_slice_whole, Rect.mem_set_unit]
  exact Iff.rfl

/-- Row r is in the block of point r / 8000. -/
theorem cover (i : S1600000x128.Idx) : ∃ t : Fin cfg5.N, (cfg5.win 2).flush t = true ∧ i ∈ ((cfg5.win 2).blk t).view.set := by
  have hi0 : (i 0).val < 1600000 := (i 0).isLt
  have hi1 : (i 1).val < 128 := (i 1).isLt
  have hN : cfg5.N = 200 := N_5
  refine ⟨⟨(i 0).val / 8000, by rw [hN]; omega⟩, flush5_2 _, ?_⟩
  rw [mem_blk]
  obtain ⟨e0, e1, e2, e3, e4, e5⟩ := idx_facts ⟨(i 0).val / 8000, by rw [hN]; omega⟩
  intro a
  match a with
  | ⟨0, _⟩ => show win5_2.index _ (0 : Fin 2) * 8000 ≤ (i 0).val ∧ (i 0).val < win5_2.index _ (0 : Fin 2) * 8000 + 8000; rw [e4]; show (i 0).val / 8000 * 8000 ≤ (i 0).val ∧ (i 0).val < (i 0).val / 8000 * 8000 + 8000; omega
  | ⟨1, _⟩ => show win5_2.index _ (1 : Fin 2) * 128 ≤ (i 1).val ∧ (i 1).val < win5_2.index _ (1 : Fin 2) * 128 + 128; rw [e5]; omega

/-- The output array after the region. -/
theorem final (c : Dev nD) : (dat5 V c).arrAt 2 cfg5.N
    = Cert.Net.msg (F := Ideal) (V c (Pipeline.arrRef spec5 0)) (V c (Pipeline.arrRef spec5 1)) :=
  (dat5 V c).arrAt_eq_of_cover 2 _ (fun t _ => flushed V c t) cover

/-- The same with the two input arrays named. -/
theorem final_of (c : Dev nD) (g : FVec Ideal Cert.ReferenceIdeal.S1600000x128 .f32) (w : FVec Ideal Cert.ReferenceIdeal.S128x128 .f32)
    (hg : V c (Pipeline.arrRef spec5 0) = g) (hw : V c (Pipeline.arrRef spec5 1) = w) :
    (dat5 V c).arrAt 2 cfg5.N = Cert.Net.msg (F := Ideal) g w := by
  subst hg hw; exact final V c

end Cert.KernelIdeal.Region5

end
-- ==== Proof.Region6.lean ====
/-
  Region 6: the averaging kernel's output array is the averaging stage of its input arrays.

  The grid has 25 points; point t reads rows 2000 t .. 2000 t + 1999 of the message sums and of the edge counts (a
  column), and writes back the same rows of the output. The counts reach the region as the count vector recast as a
  column, so row P of the column is the P-th count. What point t writes back is block t of the stage applied to the
  whole arrays, the blocks cover all 50000 rows, and the array ends at the stage.
-/
import proofs.«126142_j19722489823976_1_alg».proof.Proof.Gen.KernelIdeal.Frame
import proofs.«126142_j19722489823976_1_alg».proof.Proof.BodyAvg

set_option maxRecDepth 16384

noncomputable section

namespace Cert.KernelIdeal.Region6

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three row blocks move with the point. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- At one point: rows T·2000 + p of the sums and of the counts, stored at (p, q), give the stage at row T·2000 + p. -/
theorem point (A0 : FVec Ideal Cert.ReferenceIdeal.S50000x128 .f32) (n : FVec Ideal Cert.ReferenceIdeal.S50000 .f32)
    (x0 : FVec Ideal S2000x128 .f32) (x1 : FVec Ideal S2000x1 .f32) (T : Nat) (hT : T < 25)
    (h0 : ∀ (p : Fin 2000) (q : Fin 128), x0 (ix2 p q) = A0 (ix2 (⟨T * 2000 + p.val, by omega⟩ : Fin 50000) q))
    (h1 : ∀ (p : Fin 2000), x1 (ix2 p (0 : Fin 1)) = n (ix1 (⟨T * 2000 + p.val, by omega⟩ : Fin 50000)))
    (j : S2000x128.Idx) (i : S50000x128.Idx) (hi0 : (i 0).val = T * 2000 + (j 0).val) (hi1 : (i 1).val = (j 1).val) :
    k6_pay1 (F := Ideal) x0 x1 j = Cert.Net.mean (F := Ideal) A0 n i := by
  obtain ⟨p, q, rfl⟩ : ∃ (p : Fin 2000) (q : Fin 128), j = ix2 p q := ⟨j 0, j 1, eq_ix2 j⟩
  have hi : i = ix2 (⟨T * 2000 + p.val, by omega⟩ : Fin 50000) q := by
    funext a; apply Fin.ext
    match a with
    | ⟨0, _⟩ => exact hi0
    | ⟨1, _⟩ => exact hi1
  rw [hi, Cert.KernelIdeal.Body.k6_pay1_apply, Cert.KernelIdeal.Body.mean_apply, h0 p q, h1 p]

/-- What point t writes back is block t of the stage of the arrays as the region finds them. -/
theorem flushed (c : Dev nD) (n : FVec Ideal S50000 .f32) (hc : S50000.ShapeCasts S50000x1)
    (hn : V c (Pipeline.arrRef spec6 1) = shapeCast S50000x1 n hc) (t : Fin cfg6.N) :
    (dat6 V c).flushed 2 t = ((cfg6.win 2).blk t).view.read (Elt Ideal)
      (Cert.Net.mean (F := Ideal) (V c (Pipeline.arrRef spec6 0)) n) := by
  show (cfg6.win 2).cut (grid6.coords t) ((dat6 V c).after 2 t) = _
  rw [after6_2]
  unfold out6_2
  rw [View.canon_unit_zero hz]
  simp only [View.ld_unit_zero (S := S2000x128) hz, View.ld_unit_zero (S := S2000x1) hz]
  obtain ⟨e0, e1, e2, e3, e4, e5⟩ := idx_facts t
  have hT : t.val < 25 := lt_of_lt_of_eq t.isLt N_6
  funext j
  refine point (V c (Pipeline.arrRef spec6 0)) n (iblk6 V c 0 t) (iblk6 V c 1 t) t.val hT
    (fun p q => ?_) (fun p => ?_) j (((cfg6.win 2).blk t).view.emb j) ?_ ?_
  · show V c (Pipeline.arrRef spec6 0) (((cfg6.win 0).blk t).view.emb (ix2 p q)) = _
    refine congrArg (V c (Pipeline.arrRef spec6 0)) (funext fun a => Fin.ext ?_)
    match a with
    | ⟨0, _⟩ => show win6_0.index t (0 : Fin 2) * 2000 + 1 * p.val = t.val * 2000 + p.val; omega
    | ⟨1, _⟩ => show win6_0.index t (1 : Fin 2) * 128 + 1 * q.val = q.val; omega
  · show V c (Pipeline.arrRef spec6 1) (((cfg6.win 1).blk t).view.emb (ix2 p (0 : Fin 1))) = _
    rw [hn]
    refine (congrArg (shapeCast S50000x1 n hc)
      (?_ : _ = ix2 (⟨t.val * 2000 + p.val, by omega⟩ : Fin 50000) (0 : Fin 1))).trans (Cert.Lib.shapeCast_a_a1_apply n hc _ _)
    funext a; apply Fin.ext
    match a with
    | ⟨0, _⟩ => show win6_1.index t (0 : Fin 2) * 2000 + 1 * p.val = t.val * 2000 + p.val; omega
    | ⟨1, _⟩ => show win6_1.index t (1 : Fin 2) * 1 + 1 * 0 = 0; omega
  · show win6_2.index t (0 : Fin 2) * 2000 + 1 * (j 0).val = t.val * 2000 + (j 0).val; omega
  · show win6_2.index t (1 : Fin 2) * 128 + 1 * (j 1).val = (j 1).val; omega

/-- An index of the output array is in point t's block iff each coordinate is in the block's range. -/
theorem mem_blk (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v60).slice (win6_2.rect t)).set ↔ _
  rw [View.set_slice_whole, Rect.mem_set_unit]
  exact Iff.rfl

/-- Row r is in the block of point r / 2000. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  refine ⟨⟨(i 0).val / 2000, by rw [hN]; omega⟩, flush6_2 _, ?_⟩
  rw [mem_blk]
  obtain ⟨e0, e1, e2, e3, e4, e5⟩ := idx_facts ⟨(i 0).val / 2000, by rw [hN]; omega⟩
  intro a
  match a with
  | ⟨0, _⟩ => show win6_2.index _ (0 : Fin 2) * 2000 ≤ (i 0).val ∧ (i 0).val < win6_2.index _ (0 : Fin 2) * 2000 + 2000; rw [e4]; show (i 0).val / 2000 * 2000 ≤ (i 0).val ∧ (i 0).val < (i 0).val / 2000 * 2000 + 2000; omega
  | ⟨1, _⟩ => show win6_2.index _ (1 : Fin 2) * 128 ≤ (i 1).val ∧ (i 1).val < win6_2.index _ (1 : Fin 2) * 128 + 128; rw [e5]; omega

/-- The output array after the region. -/
theorem final (c : Dev nD) (n : FVec Ideal S50000 .f32) (hc : S50000.ShapeCasts S50000x1)
    (hn : V c (Pipeline.arrRef spec6 1) = shapeCast S50000x1 n hc) : (dat6 V c).arrAt 2 cfg6.N
    = Cert.Net.mean (F := Ideal) (V c (Pipeline.arrRef spec6 0)) n :=
  (dat6 V c).arrAt_eq_of_cover 2 _ (fun t _ => flushed V c n hc hn t) cover

/-- The same with the sums named. -/
theorem final_of (c : Dev nD) (s : FVec Ideal Cert.ReferenceIdeal.S50000x128 .f32) (n : FVec Ideal S50000 .f32) (hc : S50000.ShapeCasts S50000x1)
    (hs : V c (Pipeline.arrRef spec6 0) = s) (hn : V c (Pipeline.arrRef spec6 1) = shapeCast S50000x1 n hc) :
    (dat6 V c).arrAt 2 cfg6.N = Cert.Net.mean (F := Ideal) s n := by
  subst hs; exact final V c n hc hn

end Cert.KernelIdeal.Region6

end
-- ==== Proof.Walk.lean ====
/-
  The idealized kernel's two results as the network's stages of the launch memory.

  Walking the program's boundaries from the launch: the first stretch cuts the edge list and passes features and
  input weights on; region 0 leaves the rectified input stage; each of the three rounds gathers the current node rows
  along the edges' source nodes, region by region forms the messages, adds them and the edge counts into the target
  nodes, and averages (rectifying in the first two rounds); the last stretches pool the node rows per graph and run the
  classifier. At the last boundary the two result buffers hold the pooled graph rows and the classifier's output of
  the launch contents of the arguments.
-/
import proofs.«126142_j19722489823976_1_alg».proof.Proof.Gen.KernelIdeal.Frame
import proofs.«126142_j19722489823976_1_alg».proof.Proof.Net
import proofs.«126142_j19722489823976_1_alg».proof.Proof.Carry
import proofs.«126142_j19722489823976_1_alg».proof.Proof.Stretches
import proofs.«126142_j19722489823976_1_alg».proof.Proof.Region0
import proofs.«126142_j19722489823976_1_alg».proof.Proof.Region1
import proofs.«126142_j19722489823976_1_alg».proof.Proof.Region2
import proofs.«126142_j19722489823976_1_alg».proof.Proof.Region3
import proofs.«126142_j19722489823976_1_alg».proof.Proof.Region4
import proofs.«126142_j19722489823976_1_alg».proof.Proof.Region5
import proofs.«126142_j19722489823976_1_alg».proof.Proof.Region6

set_option maxRecDepth 16384

noncomputable section

namespace Cert.KernelIdeal.Walk

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## The first stretch and region 0 -/

theorem srcAt1 (c : Dev nD) : W1 m ρ c (Proc.devRef .tc main_v1) = Cert.Net.src (F := Ideal) (m ((c : Thread nD τ).loc main_arg2)) :=
  Cert.KernelIdeal.Stretch.ops0_src (W0 m ρ c)

theorem dstAt1 (c : Dev nD) : W1 m ρ c (Proc.devRef .tc main_v3) = Cert.Net.dst (F := Ideal) (m ((c : Thread nD τ).loc main_arg2)) :=
  Cert.KernelIdeal.Stretch.ops0_dst (W0 m ρ c)

theorem feat1 (c : Dev nD) : W1 m ρ c (Proc.devRef .tc main_v4) = (m ((c : Thread nD τ).loc main_arg0)) :=
  Cert.KernelIdeal.Stretch.ops0_x (W0 m ρ c)

theorem inw1 (c : Dev nD) : W1 m ρ c (Proc.devRef .tc main_v5) = (m ((c : Thread nD τ).loc main_arg4)) :=
  Cert.KernelIdeal.Stretch.ops0_w (W0 m ρ c)

/-- The node rows after region 0. -/
theorem out0 (c : Dev nD) : W2 m ρ c (Proc.devRef .tc main_v6) = Cert.Net.relu (F := Ideal) (Cert.Net.lin (F := Ideal) (m ((c : Thread nD τ).loc main_arg0)) (m ((c : Thread nD τ).loc main_arg4)) (m ((c : Thread nD τ).loc main_arg5))) :=
  (W2_arr m ρ c 3).trans (Cert.KernelIdeal.Region0.final_of (V1 m ρ) c _ _ _ (feat1 m ρ c) (inw1 m ρ c)
    (Cert.KernelIdeal.Carry.arg1 m ρ c main_arg5 (by decide)))

/-! ## Round 1 of message passing -/

/-- The gathered source rows when message region 1 is entered. -/
theorem rows1 (c : Dev nD) : W3 m ρ c (Proc.devRef .tc main_v13)
    = Host.gather Cert.ReferenceIdeal.gather_S50000x128_S1600000x1_S1600000x128_1_0_n_n_0_1_1128 (Cert.Net.relu (F := Ideal) (Cert.Net.lin (F := Ideal) (m ((c : Thread nD τ).loc main_arg0)) (m ((c : Thread nD τ).loc main_arg4)) (m ((c : Thread nD τ).loc main_arg5)))) (Cert.Net.srcCol (F := Ideal) (m ((c : Thread nD τ).loc main_arg2))) :=
  (Cert.KernelIdeal.Stretch.ops1_rows (W2 m ρ c) (m ((c : Thread nD τ).loc main_arg2)) ((Cert.KernelIdeal.Carry.back2 m ρ c main_v1 (by decide)).trans (srcAt1 m ρ c))).trans
    (congrArg (fun h => Host.gather Cert.ReferenceIdeal.gather_S50000x128_S1600000x1_S1600000x128_1_0_n_n_0_1_1128 h (Cert.Net.srcCol (F := Ideal) (m ((c : Thread nD τ).loc main_arg2)))) (out0 m ρ c))

/-- The round's weights there. -/
theorem wts1 (c : Dev nD) : W3 m ρ c (Proc.devRef .tc main_v14) = (m ((c : Thread nD τ).loc main_arg6)) :=
  (Cert.KernelIdeal.Stretch.ops1_w (W2 m ρ c)).trans
    ((Cert.KernelIdeal.Carry.back2 m ρ c main_arg6 (by decide)).trans (Cert.KernelIdeal.Carry.arg1 m ρ c main_arg6 (by decide)))

/-- The messages after region 1. -/
theorem msgs1 (c : Dev nD) : W4 m ρ c (Proc.devRef .tc main_v15)
    = Cert.Net.msg (F := Ideal) (Host.gather Cert.ReferenceIdeal.gather_S50000x128_S1600000x1_S1600000x128_1_0_n_n_0_1_1128 (Cert.Net.relu (F := Ideal) (Cert.Net.lin (F := Ideal) (m ((c : Thread nD τ).loc main_arg0)) (m ((c : Thread nD τ).loc main_arg4)) (m ((c : Thread nD τ).loc main_arg5)))) (Cert.Net.srcCol (F := Ideal) (m ((c : Thread nD τ).loc main_arg2)))) (m ((c : Thread nD τ).loc main_arg6)) :=
  (W4_arr m ρ c 2).trans (Cert.KernelIdeal.Region1.final_of (V3 m ρ) c _ _ (rows1 m ρ c) (wts1 m ρ c))

/-- The target nodes when the sums are formed. -/
theorem tgt1 (c : Dev nD) : W4 m ρ c (Proc.devRef .tc main_v3) = Cert.Net.dst (F := Ideal) (m ((c : Thread nD τ).loc main_arg2)) :=
  (Cert.KernelIdeal.Carry.back4 m ρ c main_v3 (by decide)).trans (dstAt1 m ρ c)

/-- The message sums when averaging region 2 is entered. -/
theorem sums1 (c : Dev nD) : W5 m ρ c (Proc.devRef .tc main_v18)
    = Cert.Net.agg (F := Ideal) (m ((c : Thread nD τ).loc main_arg2)) (Cert.Net.msg (F := Ideal) (Host.gather Cert.ReferenceIdeal.gather_S50000x128_S1600000x1_S1600000x128_1_0_n_n_0_1_1128 (Cert.Net.relu (F := Ideal) (Cert.Net.lin (F := Ideal) (m ((c : Thread nD τ).loc main_arg0)) (m ((c : Thread nD τ).loc main_arg4)) (m ((c : Thread nD τ).loc main_arg5)))) (Cert.Net.srcCol (F := Ideal) (m ((c : Thread nD τ).loc main_arg2)))) (m ((c : Thread nD τ).loc main_arg6))) :=
  (Cert.KernelIdeal.Stretch.ops2_sum (W4 m ρ c) (m ((c : Thread nD τ).loc main_arg2)) (tgt1 m ρ c)).trans
    (congrArg (Cert.Net.agg (F := Ideal) (m ((c : Thread nD τ).loc main_arg2))) (msgs1 m ρ c))

/-- The edge counts there, as a column. -/
theorem cnts1 (c : Dev nD) : W5 m ρ c (Proc.devRef .tc main_v23)
    = shapeCast S50000x1 (Cert.Net.deg (F := Ideal) (m ((c : Thread nD τ).loc main_arg2))) shapeCasts_S50000_S50000x1 :=
  Cert.KernelIdeal.Stretch.ops2_cnt (W4 m ρ c) (m ((c : Thread nD τ).loc main_arg2)) (tgt1 m ρ c)

/-- The node rows after region 2: the round's result. -/
theorem out1 (c : Dev nD) : W6 m ρ c (Proc.devRef .tc main_v24) = Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6))) :=
  (W6_arr m ρ c 2).trans (Cert.KernelIdeal.Region2.final_of (V5 m ρ) c _ (Cert.Net.deg (F := Ideal) (m ((c : Thread nD τ).loc main_arg2))) shapeCasts_S50000_S50000x1
    (sums1 m ρ c) (cnts1 m ρ c))

/-! ## Round 2 of message passing -/

/-- The gathered source rows when message region 3 is entered. -/
theorem rows2 (c : Dev nD) : W7 m ρ c (Proc.devRef .tc main_v31)
    = Host.gather Cert.ReferenceIdeal.gather_S50000x128_S1600000x1_S1600000x128_1_0_n_n_0_1_1128 (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (Cert.Net.srcCol (F := Ideal) (m ((c : Thread nD τ).loc main_arg2))) :=
  (Cert.KernelIdeal.Stretch.ops3_rows (W6 m ρ c) (m ((c : Thread nD τ).loc main_arg2)) ((Cert.KernelIdeal.Carry.back6 m ρ c main_v1 (by decide)).trans (srcAt1 m ρ c))).trans
    (congrArg (fun h => Host.gather Cert.ReferenceIdeal.gather_S50000x128_S1600000x1_S1600000x128_1_0_n_n_0_1_1128 h (Cert.Net.srcCol (F := Ideal) (m ((c : Thread nD τ).loc main_arg2)))) (out1 m ρ c))

/-- The round's weights there. -/
theorem wts2 (c : Dev nD) : W7 m ρ c (Proc.devRef .tc main_v32) = (m ((c : Thread nD τ).loc main_arg7)) :=
  (Cert.KernelIdeal.Stretch.ops3_w (W6 m ρ c)).trans
    ((Cert.KernelIdeal.Carry.back6 m ρ c main_arg7 (by decide)).trans (Cert.KernelIdeal.Carry.arg1 m ρ c main_arg7 (by decide)))

/-- The messages after region 3. -/
theorem msgs2 (c : Dev nD) : W8 m ρ c (Proc.devRef .tc main_v33)
    = Cert.Net.msg (F := Ideal) (Host.gather Cert.ReferenceIdeal.gather_S50000x128_S1600000x1_S1600000x128_1_0_n_n_0_1_1128 (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (Cert.Net.srcCol (F := Ideal) (m ((c : Thread nD τ).loc main_arg2)))) (m ((c : Thread nD τ).loc main_arg7)) :=
  (W8_arr m ρ c 2).trans (Cert.KernelIdeal.Region3.final_of (V7 m ρ) c _ _ (rows2 m ρ c) (wts2 m ρ c))

/-- The target nodes when the sums are formed. -/
theorem tgt2 (c : Dev nD) : W8 m ρ c (Proc.devRef .tc main_v3) = Cert.Net.dst (F := Ideal) (m ((c : Thread nD τ).loc main_arg2)) :=
  (Cert.KernelIdeal.Carry.back8 m ρ c main_v3 (by decide)).trans (dstAt1 m ρ c)

/-- The message sums when averaging region 4 is entered. -/
theorem sums2 (c : Dev nD) : W9 m ρ c (Proc.devRef .tc main_v36)
    = Cert.Net.agg (F := Ideal) (m ((c : Thread nD τ).loc main_arg2)) (Cert.Net.msg (F := Ideal) (Host.gather Cert.ReferenceIdeal.gather_S50000x128_S1600000x1_S1600000x128_1_0_n_n_0_1_1128 (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (Cert.Net.srcCol (F := Ideal) (m ((c : Thread nD τ).loc main_arg2)))) (m ((c : Thread nD τ).loc main_arg7))) :=
  (Cert.KernelIdeal.Stretch.ops4_sum (W8 m ρ c) (m ((c : Thread nD τ).loc main_arg2)) (tgt2 m ρ c)).trans
    (congrArg (Cert.Net.agg (F := Ideal) (m ((c : Thread nD τ).loc main_arg2))) (msgs2 m ρ c))

/-- The edge counts there, as a column. -/
theorem cnts2 (c : Dev nD) : W9 m ρ c (Proc.devRef .tc main_v41)
    = shapeCast S50000x1 (Cert.Net.deg (F := Ideal) (m ((c : Thread nD τ).loc main_arg2))) shapeCasts_S50000_S50000x1 :=
  Cert.KernelIdeal.Stretch.ops4_cnt (W8 m ρ c) (m ((c : Thread nD τ).loc main_arg2)) (tgt2 m ρ c)

/-- The node rows after region 4: the round's result. -/
theorem out2 (c : Dev nD) : W10 m ρ c (Proc.devRef .tc main_v42) = Cert.Net.relu (F := Ideal) (Cert.Net.conv (F := Ideal) (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (m ((c : Thread nD τ).loc main_arg2)) (m ((c : Thread nD τ).loc main_arg7))) :=
  (W10_arr m ρ c 2).trans (Cert.KernelIdeal.Region4.final_of (V9 m ρ) c _ (Cert.Net.deg (F := Ideal) (m ((c : Thread nD τ).loc main_arg2))) shapeCasts_S50000_S50000x1
    (sums2 m ρ c) (cnts2 m ρ c))

/-! ## Round 3 of message passing -/

/-- The gathered source rows when message region 5 is entered. -/
theorem rows3 (c : Dev nD) : W11 m ρ c (Proc.devRef .tc main_v49)
    = Host.gather Cert.ReferenceIdeal.gather_S50000x128_S1600000x1_S1600000x128_1_0_n_n_0_1_1128 (Cert.Net.relu (F := Ideal) (Cert.Net.conv (F := Ideal) (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (m ((c : Thread nD τ).loc main_arg2)) (m ((c : Thread nD τ).loc main_arg7)))) (Cert.Net.srcCol (F := Ideal) (m ((c : Thread nD τ).loc main_arg2))) :=
  (Cert.KernelIdeal.Stretch.ops5_rows (W10 m ρ c) (m ((c : Thread nD τ).loc main_arg2)) ((Cert.KernelIdeal.Carry.back10 m ρ c main_v1 (by decide)).trans (srcAt1 m ρ c))).trans
    (congrArg (fun h => Host.gather Cert.ReferenceIdeal.gather_S50000x128_S1600000x1_S1600000x128_1_0_n_n_0_1_1128 h (Cert.Net.srcCol (F := Ideal) (m ((c : Thread nD τ).loc main_arg2)))) (out2 m ρ c))

/-- The round's weights there. -/
theorem wts3 (c : Dev nD) : W11 m ρ c (Proc.devRef .tc main_v50) = (m ((c : Thread nD τ).loc main_arg8)) :=
  (Cert.KernelIdeal.Stretch.ops5_w (W10 m ρ c)).trans
    ((Cert.KernelIdeal.Carry.back10 m ρ c main_arg8 (by decide)).trans (Cert.KernelIdeal.Carry.arg1 m ρ c main_arg8 (by decide)))

/-- The messages after region 5. -/
theorem msgs3 (c : Dev nD) : W12 m ρ c (Proc.devRef .tc main_v51)
    = Cert.Net.msg (F := Ideal) (Host.gather Cert.ReferenceIdeal.gather_S50000x128_S1600000x1_S1600000x128_1_0_n_n_0_1_1128 (Cert.Net.relu (F := Ideal) (Cert.Net.conv (F := Ideal) (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (m ((c : Thread nD τ).loc main_arg2)) (m ((c : Thread nD τ).loc main_arg7)))) (Cert.Net.srcCol (F := Ideal) (m ((c : Thread nD τ).loc main_arg2)))) (m ((c : Thread nD τ).loc main_arg8)) :=
  (W12_arr m ρ c 2).trans (Cert.KernelIdeal.Region5.final_of (V11 m ρ) c _ _ (rows3 m ρ c) (wts3 m ρ c))

/-- The target nodes when the sums are formed. -/
theorem tgt3 (c : Dev nD) : W12 m ρ c (Proc.devRef .tc main_v3) = Cert.Net.dst (F := Ideal) (m ((c : Thread nD τ).loc main_arg2)) :=
  (Cert.KernelIdeal.Carry.back12 m ρ c main_v3 (by decide)).trans (dstAt1 m ρ c)

/-- The message sums when averaging region 6 is entered. -/
theorem sums3 (c : Dev nD) : W13 m ρ c (Proc.devRef .tc main_v54)
    = Cert.Net.agg (F := Ideal) (m ((c : Thread nD τ).loc main_arg2)) (Cert.Net.msg (F := Ideal) (Host.gather Cert.ReferenceIdeal.gather_S50000x128_S1600000x1_S1600000x128_1_0_n_n_0_1_1128 (Cert.Net.relu (F := Ideal) (Cert.Net.conv (F := Ideal) (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (m ((c : Thread nD τ).loc main_arg2)) (m ((c : Thread nD τ).loc main_arg7)))) (Cert.Net.srcCol (F := Ideal) (m ((c : Thread nD τ).loc main_arg2)))) (m ((c : Thread nD τ).loc main_arg8))) :=
  (Cert.KernelIdeal.Stretch.ops6_sum (W12 m ρ c) (m ((c : Thread nD τ).loc main_arg2)) (tgt3 m ρ c)).trans
    (congrArg (Cert.Net.agg (F := Ideal) (m ((c : Thread nD τ).loc main_arg2))) (msgs3 m ρ c))

/-- The edge counts there, as a column. -/
theorem cnts3 (c : Dev nD) : W13 m ρ c (Proc.devRef .tc main_v59)
    = shapeCast S50000x1 (Cert.Net.deg (F := Ideal) (m ((c : Thread nD τ).loc main_arg2))) shapeCasts_S50000_S50000x1 :=
  Cert.KernelIdeal.Stretch.ops6_cnt (W12 m ρ c) (m ((c : Thread nD τ).loc main_arg2)) (tgt3 m ρ c)

/-- The node rows after region 6: the round's result. -/
theorem out3 (c : Dev nD) : W14 m ρ c (Proc.devRef .tc main_v60) = Cert.Net.conv (F := Ideal) (Cert.Net.relu (F := Ideal) (Cert.Net.conv (F := Ideal) (Cert.Net.relu (F := Ideal) (Cert.Net.conv (F := Ideal) (Cert.Net.relu (F := Ideal) (Cert.Net.lin (F := Ideal) (m ((c : Thread nD τ).loc main_arg0)) (m ((c : Thread nD τ).loc main_arg4)) (m ((c : Thread nD τ).loc main_arg5)))) (m ((c : Thread nD τ).loc main_arg2)) (m ((c : Thread nD τ).loc main_arg6)))) (m ((c : Thread nD τ).loc main_arg2)) (m ((c : Thread nD τ).loc main_arg7)))) (m ((c : Thread nD τ).loc main_arg2)) (m ((c : Thread nD τ).loc main_arg8)) :=
  (W14_arr m ρ c 2).trans (Cert.KernelIdeal.Region6.final_of (V13 m ρ) c _ (Cert.Net.deg (F := Ideal) (m ((c : Thread nD τ).loc main_arg2))) shapeCasts_S50000_S50000x1
    (sums3 m ρ c) (cnts3 m ρ c))

/-! ## The pooling and the classifier -/

/-- The pooled graph rows of the launch memory. -/
def rows (c : Dev nD) : Cert.Net.FA (F := Ideal) Cert.ReferenceIdeal.S64x128 :=
  Cert.Net.pool (F := Ideal) (Cert.Net.nodes (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg3))

/-- The classifier's output of the launch memory. -/
def classes (c : Dev nD) : Cert.Net.FA (F := Ideal) Cert.ReferenceIdeal.S64x2 :=
  Cert.Net.logits (F := Ideal) (Cert.Net.hidden (F := Ideal) (Cert.Net.hidden (F := Ideal) (rows m c) (m ((c : Thread nD τ).loc main_arg9)) (m ((c : Thread nD τ).loc main_arg10))) (m ((c : Thread nD τ).loc main_arg11)) (m ((c : Thread nD τ).loc main_arg12))) (m ((c : Thread nD τ).loc main_arg13)) (m ((c : Thread nD τ).loc main_arg14))

/-- An argument at a late boundary. -/
theorem argAt14 (c : Dev nD) (b : Ref sig .tc) (hk : b ∈ Cert.KernelIdeal.Carry.kept) (ha : b ∈ [main_arg0, main_arg1, main_arg2, main_arg3, main_arg4, main_arg5, main_arg6, main_arg7, main_arg8, main_arg9, main_arg10, main_arg11, main_arg12, main_arg13, main_arg14]) :
    W14 m ρ c (Proc.devRef .tc b) = m ((c : Thread nD τ).loc b) :=
  (Cert.KernelIdeal.Carry.back14 m ρ c b hk).trans (Cert.KernelIdeal.Carry.arg1 m ρ c b ha)
theorem argAt16 (c : Dev nD) (b : Ref sig .tc) (hk : b ∈ Cert.KernelIdeal.Carry.kept) (ha : b ∈ [main_arg0, main_arg1, main_arg2, main_arg3, main_arg4, main_arg5, main_arg6, main_arg7, main_arg8, main_arg9, main_arg10, main_arg11, main_arg12, main_arg13, main_arg14]) :
    W16 m ρ c (Proc.devRef .tc b) = m ((c : Thread nD τ).loc b) :=
  (Cert.KernelIdeal.Carry.back16 m ρ c b hk).trans (Cert.KernelIdeal.Carry.arg1 m ρ c b ha)
theorem argAt18 (c : Dev nD) (b : Ref sig .tc) (hk : b ∈ Cert.KernelIdeal.Carry.kept) (ha : b ∈ [main_arg0, main_arg1, main_arg2, main_arg3, main_arg4, main_arg5, main_arg6, main_arg7, main_arg8, main_arg9, main_arg10, main_arg11, main_arg12, main_arg13, main_arg14]) :
    W18 m ρ c (Proc.devRef .tc b) = m ((c : Thread nD τ).loc b) :=
  (Cert.KernelIdeal.Carry.back18 m ρ c b hk).trans (Cert.KernelIdeal.Carry.arg1 m ρ c b ha)

theorem rows15 (c : Dev nD) : W15 m ρ c (Proc.devRef .tc main_v73) = rows m c := by
  refine (Cert.KernelIdeal.Stretch.ops7_rows (W14 m ρ c)).trans ?_
  rw [out3 m ρ c, argAt14 m ρ c main_arg3 (by decide) (by decide)]
  rfl

theorem pre15 (c : Dev nD) : W15 m ρ c (Proc.devRef .tc main_v77) = Cert.Net.pre (F := Ideal) (rows m c) (m ((c : Thread nD τ).loc main_arg9)) (m ((c : Thread nD τ).loc main_arg10)) := by
  refine (Cert.KernelIdeal.Stretch.ops7_pre (W14 m ρ c)).trans ?_
  rw [out3 m ρ c, argAt14 m ρ c main_arg3 (by decide) (by decide), argAt14 m ρ c main_arg9 (by decide) (by decide),
    argAt14 m ρ c main_arg10 (by decide) (by decide)]
  rfl

theorem hid16 (c : Dev nD) : W16 m ρ c (Proc.devRef .tc main_v78) = Cert.Net.hidden (F := Ideal) (rows m c) (m ((c : Thread nD τ).loc main_arg9)) (m ((c : Thread nD τ).loc main_arg10)) :=
  (Cert.KernelIdeal.Stretch.ops7_1_rect (W15 m ρ c)).trans (congrArg (Cert.Net.rect (F := Ideal)) (pre15 m ρ c))

theorem pre17 (c : Dev nD) : W17 m ρ c (Proc.devRef .tc main_v82)
    = Cert.Net.pre (F := Ideal) (Cert.Net.hidden (F := Ideal) (rows m c) (m ((c : Thread nD τ).loc main_arg9)) (m ((c : Thread nD τ).loc main_arg10))) (m ((c : Thread nD τ).loc main_arg11)) (m ((c : Thread nD τ).loc main_arg12)) := by
  refine (Cert.KernelIdeal.Stretch.ops7_2_pre (W16 m ρ c)).trans ?_
  rw [hid16 m ρ c, argAt16 m ρ c main_arg11 (by decide) (by decide), argAt16 m ρ c main_arg12 (by decide) (by decide)]

theorem hid18 (c : Dev nD) : W18 m ρ c (Proc.devRef .tc main_v83)
    = Cert.Net.hidden (F := Ideal) (Cert.Net.hidden (F := Ideal) (rows m c) (m ((c : Thread nD τ).loc main_arg9)) (m ((c : Thread nD τ).loc main_arg10))) (m ((c : Thread nD τ).loc main_arg11)) (m ((c : Thread nD τ).loc main_arg12)) :=
  (Cert.KernelIdeal.Stretch.ops7_3_rect (W17 m ρ c)).trans (congrArg (Cert.Net.rect (F := Ideal)) (pre17 m ρ c))

/-- The classifier's output at the last boundary. -/
theorem classes19 (c : Dev nD) : W19 m ρ c (Proc.devRef .tc main_v87) = classes m c := by
  refine (Cert.KernelIdeal.Stretch.ops7_4_out (W18 m ρ c)).trans ?_
  rw [hid18 m ρ c, argAt18 m ρ c main_arg13 (by decide) (by decide), argAt18 m ρ c main_arg14 (by decide) (by decide)]
  rfl

/-- The pooled graph rows at the last boundary. -/
theorem rows19 (c : Dev nD) : W19 m ρ c (Proc.devRef .tc main_v73) = rows m c :=
  (Cert.KernelIdeal.Stretch.ops7_4_keep (W18 m ρ c)).trans ((Cert.KernelIdeal.Stretch.ops7_3_keep (W17 m ρ c)).trans
    ((Cert.KernelIdeal.Stretch.ops7_2_keep (W16 m ρ c)).trans ((Cert.KernelIdeal.Stretch.ops7_1_keep (W15 m ρ c)).trans (rows15 m ρ c))))

end Cert.KernelIdeal.Walk

end
-- ==== Proof.RefNet.lean ====
/-
  The reference program's two results are the network's stages composed.

  Its run ends with the pooled graph rows and the classifier's output at the composed terms of its operations; each
  is, read from the outside in, the stages of the network applied to the argument arrays — the same operations in
  the same order, so the equations hold by unfolding the stages' names.
-/
import proofs.«126142_j19722489823976_1_alg».proof.Proof.Gen.ReferenceIdeal.Run
import proofs.«126142_j19722489823976_1_alg».proof.Proof.Net

noncomputable section

namespace Cert.RefNet

open Idealize.ShloMosaic Idealize.ShloMosaic.TcCoe Idealize.SL.Sem Cert.ReferenceIdeal Cert.ReferenceIdeal.Value

variable {F : FTy → Type} [FloatOps F]

/-- The pooled graph rows as a function of the launch memory. -/
def graphRows (m : (ℓ : Loc nD τ sig) → Buf (Elt F) ℓ) (c : Dev nD) : Cert.Net.FA (F := F) S64x128 :=
  Cert.Net.pool
    (Cert.Net.nodes (m ((c.tc : Thread nD τ).loc main_arg0)) (m ((c.tc : Thread nD τ).loc main_arg2))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)))
    (m ((c.tc : Thread nD τ).loc main_arg3))

/-- The classifier's output as a function of the launch memory. -/
def classes (m : (ℓ : Loc nD τ sig) → Buf (Elt F) ℓ) (c : Dev nD) : Cert.Net.FA (F := F) S64x2 :=
  Cert.Net.logits
    (Cert.Net.hidden
      (Cert.Net.hidden (graphRows m c) (m ((c.tc : Thread nD τ).loc main_arg9)) (m ((c.tc : Thread nD τ).loc main_arg10)))
      (m ((c.tc : Thread nD τ).loc main_arg11)) (m ((c.tc : Thread nD τ).loc main_arg12)))
    (m ((c.tc : Thread nD τ).loc main_arg13)) (m ((c.tc : Thread nD τ).loc main_arg14))

set_option maxRecDepth 8192 in
theorem res_rows (m : (ℓ : Loc nD τ sig) → Buf (Elt F) ℓ) (c : Dev nD) : res_main_v96 m c = graphRows m c := by
  unfold res_main_v96 graphRows
  rfl

set_option maxRecDepth 8192 in
theorem res_classes (m : (ℓ : Loc nD τ sig) → Buf (Elt F) ℓ) (c : Dev nD) : res_main_v110 m c = classes m c := by
  unfold res_main_v110 classes graphRows
  rfl

end Cert.RefNet

end
-- ==== Proof.lean ====
/-
  The kernel program and the reference compute the same graph network on the extended reals.

  Both programs apply a dense layer with bias and a rectifier to the node features, run three rounds of message
  passing over the edge list (gather the source rows, multiply by the round's weights and a fixed scale, add into the
  target nodes, divide by the larger of the edge count and one; a rectifier after the first two rounds), average the
  node rows per graph and run a three-layer classifier. The kernel program does the dense layer, the message products
  and the averaging in seven pipelined regions, block by block, and everything else by the same host operations as
  the reference; on the extended reals a change of float format is the identity, a block product into a zero
  accumulator is the plain sum over the contracted axis, and a block of rows of a whole-array stage is the stage of
  the block's rows. So each region's output array is the corresponding stage of its input arrays, the program's
  last contents at the two result buffers are the network's stages of the launch memory, and the reference's composed
  result terms are the same stages by unfolding. The three frame claims are the generated frame runs (the reference's
  is its generated run with the results dropped); the idealization rewrote nothing, so there is nothing to preserve.
-/
import proofs.«126142_j19722489823976_1_alg».proof.Defs
import proofs.«126142_j19722489823976_1_alg».proof.Proof.Gen.Kernel
import proofs.«126142_j19722489823976_1_alg».proof.Proof.Gen.Kernel.Frame
import proofs.«126142_j19722489823976_1_alg».proof.Proof.Gen.KernelIdeal
import proofs.«126142_j19722489823976_1_alg».proof.Proof.Gen.KernelIdeal.Frame
import proofs.«126142_j19722489823976_1_alg».proof.Proof.Gen.ReferenceIdeal
import proofs.«126142_j19722489823976_1_alg».proof.Proof.Gen.ReferenceIdeal.Run
import proofs.«126142_j19722489823976_1_alg».proof.Proof.Gen.Pre_finite_inputs
import proofs.«126142_j19722489823976_1_alg».proof.Proof.KernelRun
import proofs.«126142_j19722489823976_1_alg».proof.Proof.Walk
import proofs.«126142_j19722489823976_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the classifier's output and the pooled graph rows of the (agreeing) launch contents. -/
theorem algebraic : Cert.algebraic_KernelIdeal_ReferenceIdeal := by
  intro m ρ m' ρ' _ hagree
  refine ⟨fun c => Cert.KernelIdeal.Walk.classes m c, fun c => Cert.KernelIdeal.Walk.rows m c, ?_, ?_⟩
  · refine (θ_run Cert.KernelIdeal.defs _ _).mono (fun r h c => ?_) (Cert.KernelIdeal.Outputs.run_results m ρ)
    obtain ⟨h87, h73, hargs⟩ := h c
    exact ⟨h87.trans (Cert.KernelIdeal.Walk.classes19 m ρ c), h73.trans (Cert.KernelIdeal.Walk.rows19 m ρ c), hargs⟩
  · refine (θ_run Cert.ReferenceIdeal.defs _ _).mono (fun r h c => ?_) (Cert.ReferenceIdeal.Value.run (F := Ideal) m' ρ')
    obtain ⟨h110, h96, hargs⟩ := h c
    obtain ⟨a0, a1, a2, a3, a4, a5, a6, a7, a8, a9, a10, a11, a12, a13, a14⟩ := hagree c
    refine ⟨h110.trans ((Cert.RefNet.res_classes m' c).trans ?_), h96.trans ((Cert.RefNet.res_rows m' c).trans ?_), hargs⟩
    · unfold Cert.RefNet.classes Cert.RefNet.graphRows Cert.KernelIdeal.Walk.classes Cert.KernelIdeal.Walk.rows
      rw [a0, a2, a3, a4, a5, a6, a7, a8, a9, a10, a11, a12, a13, a14]
    · unfold Cert.RefNet.graphRows Cert.KernelIdeal.Walk.rows
      rw [a0, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
